-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x16x2048x64 : Shape := ⟨4, ![4, 16, 2048, 64]⟩
abbrev S4x1x1x2048 : Shape := ⟨4, ![4, 1, 1, 2048]⟩
abbrev S1024x1024 : Shape := ⟨2, ![1024, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  bcast_S_S4x1x1x2048 : S_.BroadcastsInDim S4x1x1x2048 (![] : Fin 0 → Fin S4x1x1x2048.rank)
  reducesTo_S4x1x1x2048_S_d0_1_2_3 : S4x1x1x2048.ReducesTo [0, 1, 2, 3] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S4x1x1x2048 1) : IVec S_ 1 :=
  let main_c_5 : IVec S_ 1 := constantI S_ 1 1#1
  let main_v17 : IVec S_ 1 := (fun x v => Host.reduce IntOp.andi x v reducesTo_S4x1x1x2048_S_d0_1_2_3 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x1024x1024 .f32) (main_arg1 : FVec F S4x16x2048x64 .f32) (main_arg2 : FVec F S4x16x2048x64 .f32) (main_arg3 : FVec F S4x1x1x2048 .f32) (main_arg4 : FVec F S1024x1024 .f32) (main_arg5 : FVec F S1024x1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x1x2048 .f32 := Host.absf main_arg3
  let main_cst_4 : FVec F S_ .f32 := constant S_ .f32 0x7F800000#32
  let main_v15 : FVec F S4x1x1x2048 .f32 := broadcastInDim S4x1x1x2048 ![] bcast_S_S4x1x1x2048 main_cst_4
  let main_v16 : IVec S4x1x1x2048 1 := cmpf .olt main_v14 main_v15
  fn_part1 (F := F) main_arg4 main_arg5 main_v13 main_v16
-- ==== Kernel.lean ====
abbrev S4x1024x1024 : Shape := ⟨3, ![4, 1024, 1024]⟩
abbrev S4x16x2048x64 : Shape := ⟨4, ![4, 16, 2048, 64]⟩
abbrev S4x1x1x2048 : Shape := ⟨4, ![4, 1, 1, 2048]⟩
abbrev S1024x1024 : Shape := ⟨2, ![1024, 1024]⟩
abbrev S1x512x1024 : Shape := ⟨3, ![1, 512, 1024]⟩
abbrev S1x16x2048x64 : Shape := ⟨4, ![1, 16, 2048, 64]⟩
abbrev S1x1x1x2048 : Shape := ⟨4, ![1, 1, 1, 2048]⟩
abbrev S512x1024 : Shape := ⟨2, ![512, 1024]⟩
abbrev S16x2048x64 : Shape := ⟨3, ![16, 2048, 64]⟩
abbrev S2048 : Shape := ⟨1, ![2048]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x1024x1024, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x16x2048x64, .f32⟩
  | .local _ .vmem, ⟨4, _⟩ => ⟨S1x16x2048x64, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x16x2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x16x2048x64_S1x16x2048x64_0_0_0_0 : ∀ a, (![0, 0, 0, 0] : Fin 4 → Nat) a + S1x16x2048x64.size a ≤ S1x16x2048x64.size a
  h_S1x16x2048x64 : 0 < S1x16x2048x64.numel
  shapeCasts_S1x16x2048x64_S16x2048x64 : S1x16x2048x64.ShapeCasts S16x2048x64
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  slices_S512x1024_o0_0_S512x64 : S512x1024.Slices ![0, 0] S512x64
  slices_S16x2048x64_o0_0_0_S1x2048x64 : S16x2048x64.Slices ![0, 0, 0] S1x2048x64
  shapeCasts_S1x2048x64_S2048x64 : S1x2048x64.ShapeCasts S2048x64
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  slices_S16x2048x64_o1_0_0_S1x2048x64 : S16x2048x64.Slices ![1, 0, 0] S1x2048x64
  slices_S512x1024_o0_128_S512x64 : S512x1024.Slices ![0, 128] S512x64
  slices_S16x2048x64_o2_0_0_S1x2048x64 : S16x2048x64.Slices ![2, 0, 0] S1x2048x64
  slices_S512x1024_o0_192_S512x64 : S512x1024.Slices ![0, 192] S512x64
  slices_S16x2048x64_o3_0_0_S1x2048x64 : S16x2048x64.Slices ![3, 0, 0] S1x2048x64
  slices_S512x1024_o0_256_S512x64 : S512x1024.Slices ![0, 256] S512x64
  slices_S16x2048x64_o4_0_0_S1x2048x64 : S16x2048x64.Slices ![4, 0, 0] S1x2048x64
  slices_S512x1024_o0_320_S512x64 : S512x1024.Slices ![0, 320] S512x64
  slices_S16x2048x64_o5_0_0_S1x2048x64 : S16x2048x64.Slices ![5, 0, 0] S1x2048x64
  slices_S512x1024_o0_384_S512x64 : S512x1024.Slices ![0, 384] S512x64
  slices_S16x2048x64_o6_0_0_S1x2048x64 : S16x2048x64.Slices ![6, 0, 0] S1x2048x64
  slices_S512x1024_o0_448_S512x64 : S512x1024.Slices ![0, 448] S512x64
  slices_S16x2048x64_o7_0_0_S1x2048x64 : S16x2048x64.Slices ![7, 0, 0] S1x2048x64
  slices_S512x1024_o0_512_S512x64 : S512x1024.Slices ![0, 512] S512x64
  slices_S16x2048x64_o8_0_0_S1x2048x64 : S16x2048x64.Slices ![8, 0, 0] S1x2048x64
  slices_S512x1024_o0_576_S512x64 : S512x1024.Slices ![0, 576] S512x64
  slices_S16x2048x64_o9_0_0_S1x2048x64 : S16x2048x64.Slices ![9, 0, 0] S1x2048x64
  slices_S512x1024_o0_640_S512x64 : S512x1024.Slices ![0, 640] S512x64
  slices_S16x2048x64_o10_0_0_S1x2048x64 : S16x2048x64.Slices ![10, 0, 0] S1x2048x64
  slices_S512x1024_o0_704_S512x64 : S512x1024.Slices ![0, 704] S512x64
  slices_S16x2048x64_o11_0_0_S1x2048x64 : S16x2048x64.Slices ![11, 0, 0] S1x2048x64
  slices_S512x1024_o0_768_S512x64 : S512x1024.Slices ![0, 768] S512x64
  slices_S16x2048x64_o12_0_0_S1x2048x64 : S16x2048x64.Slices ![12, 0, 0] S1x2048x64
  slices_S512x1024_o0_832_S512x64 : S512x1024.Slices ![0, 832] S512x64
  slices_S16x2048x64_o13_0_0_S1x2048x64 : S16x2048x64.Slices ![13, 0, 0] S1x2048x64
  slices_S512x1024_o0_896_S512x64 : S512x1024.Slices ![0, 896] S512x64
  slices_S16x2048x64_o14_0_0_S1x2048x64 : S16x2048x64.Slices ![14, 0, 0] S1x2048x64
  slices_S512x1024_o0_960_S512x64 : S512x1024.Slices ![0, 960] S512x64
  slices_S16x2048x64_o15_0_0_S1x2048x64 : S16x2048x64.Slices ![15, 0, 0] S1x2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x1024x1024.size a
  hwx0_0 : ∀ i : grid0.Coords, EltTy.bits .f32 = 32 ∨ (Rect.block (s := S4x1024x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S4x16x2048x64.size a
  hwx0_2 : ∀ i : grid0.Coords, EltTy.bits .f32 = 32 ∨ (Rect.block (s := S4x16x2048x64) S1x16x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16x2048x64.size a ≤ S4x16x2048x64.size a
  hwx0_3 : ∀ i : grid0.Coords, EltTy.bits .f32 = 32 ∨ (Rect.block (s := S4x16x2048x64) S1x16x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x2048.size a ≤ S4x1x1x2048.size a
  hwx0_4 : ∀ i : grid0.Coords, EltTy.bits .f32 = 32 ∨ (Rect.block (s := S4x1x1x2048) S1x1x1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x1024x1024.size a
  hwx0_6 : ∀ i : grid0.Coords, EltTy.bits .f32 = 32 ∨ (Rect.block (s := S4x1024x1024) S1x512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x16x2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x1024x1024 : Shape := ⟨3, ![4, 1024, 1024]⟩
abbrev S4x16x2048x64 : Shape := ⟨4, ![4, 16, 2048, 64]⟩
abbrev S4x1x1x2048 : Shape := ⟨4, ![4, 1, 1, 2048]⟩
abbrev S1024x1024 : Shape := ⟨2, ![1024, 1024]⟩
abbrev S4x1024x16x64 : Shape := ⟨4, ![4, 1024, 16, 64]⟩
abbrev S4x16x1024x64 : Shape := ⟨4, ![4, 16, 1024, 64]⟩
abbrev S4x16x1024x2048 : Shape := ⟨4, ![4, 16, 1024, 2048]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S1024x1024, .f32⟩
  | .hbm, ⟨5, _⟩ => ⟨S1024x1024, .f32⟩
  | .hbm, ⟨6, _⟩ => ⟨S4x1024x1024, .f32⟩
  | .hbm, ⟨7, _⟩ => ⟨S4x1024x16x64, .f32⟩
  | .hbm, ⟨8, _⟩ => ⟨S4x16x1024x64, .f32⟩
  | .hbm, ⟨9, _⟩ => ⟨S4x16x1024x2048, .f32⟩
  | .hbm, ⟨10, _⟩ => ⟨S4x16x1024x2048, .f32⟩
  | .hbm, ⟨11, _⟩ => ⟨S4x16x1024x2048, .f32⟩
  | .hbm, ⟨12, _⟩ => ⟨S_, .f32⟩
  | .hbm, ⟨13, _⟩ => ⟨S4x16x1024, .f32⟩
  | .hbm, ⟨14, _⟩ => ⟨S_, .f32⟩
  | .hbm, ⟨15, _⟩ => ⟨S4x16x1024, .f32⟩
  | .hbm, ⟨16, _⟩ => ⟨S4x16x1024, .f32⟩
  | .hbm, ⟨17, _⟩ => ⟨S4x16x1024x1, .f32⟩
  | .hbm, ⟨18, _⟩ => ⟨S4x16x1024x2048, .f32⟩
  | .hbm, ⟨19, _⟩ => ⟨S4x16x1024x2048, .f32⟩
  | .hbm, ⟨20, _⟩ => ⟨S4x16x1024x2048, .f32⟩
  | .hbm, ⟨21, _⟩ => ⟨S_, .f32⟩
  | .hbm, ⟨22, _⟩ => ⟨S4x16x1024, .f32⟩
  | .hbm, ⟨23, _⟩ => ⟨S4x16x1024x1, .f32⟩
  | .hbm, ⟨24, _⟩ => ⟨S4x16x1024x2048, .f32⟩
  | .hbm, ⟨25, _⟩ => ⟨S4x16x1024x2048, .f32⟩
  | .hbm, ⟨26, _⟩ => ⟨S4x16x1024x64, .f32⟩
  | .hbm, ⟨27, _⟩ => ⟨S4x1024x16x64, .f32⟩
  | .hbm, ⟨28, _⟩ => ⟨S4x1024x1024, .f32⟩
  | .hbm, ⟨29, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S4x1x1x2048_S4x16x1024x2048_0_1_2_3 : S4x1x1x2048.BroadcastsInDim S4x16x1024x2048 (![0, 1, 2, 3] : Fin 4 → Fin S4x16x1024x2048.rank)
  reducesTo_S4x16x1024x2048_S4x16x1024_d3 : S4x16x1024x2048.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x2048_0_1_2_3 : S4x16x1024x1.BroadcastsInDim S4x16x1024x2048 (![0, 1, 2, 3] : Fin 4 → Fin S4x16x1024x2048.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4x1024x1024_S1024x1024_S4x1024x1024_2_0_01_1_n_n_wf : DotDims.WF S4x1024x1024 S1024x1024 S4x1024x1024 [2] [0] [0, 1] [1] [] []
  dot_S4x16x1024x64_S4x16x2048x64_S4x16x1024x2048_3_3_2_2_01_01_wf : DotDims.WF S4x16x1024x64 S4x16x2048x64 S4x16x1024x2048 [3] [3] [2] [2] [0, 1] [0, 1]
  dot_S4x16x1024x2048_S4x16x2048x64_S4x16x1024x64_3_2_2_3_01_01_wf : DotDims.WF S4x16x1024x2048 S4x16x2048x64 S4x16x1024x64 [3] [2] [2] [3] [0, 1] [0, 1]

variable [Facts₀]

def dot_S4x1024x1024_S1024x1024_S4x1024x1024_2_0_01_1_n_n : DotDims S4x1024x1024 S1024x1024 S4x1024x1024 where
  lhsContracting := [2]
  rhsContracting := [0]
  lhsNonContracting := [0, 1]
  rhsNonContracting := [1]
  lhsBatch := []
  rhsBatch := []
  wf := dot_S4x1024x1024_S1024x1024_S4x1024x1024_2_0_01_1_n_n_wf
def dot_S4x16x1024x64_S4x16x2048x64_S4x16x1024x2048_3_3_2_2_01_01 : DotDims S4x16x1024x64 S4x16x2048x64 S4x16x1024x2048 where
  lhsContracting := [3]
  rhsContracting := [3]
  lhsNonContracting := [2]
  rhsNonContracting := [2]
  lhsBatch := [0, 1]
  rhsBatch := [0, 1]
  wf := dot_S4x16x1024x64_S4x16x2048x64_S4x16x1024x2048_3_3_2_2_01_01_wf
def dot_S4x16x1024x2048_S4x16x2048x64_S4x16x1024x64_3_2_2_3_01_01 : DotDims S4x16x1024x2048 S4x16x2048x64 S4x16x1024x64 where
  lhsContracting := [3]
  rhsContracting := [2]
  lhsNonContracting := [2]
  rhsNonContracting := [3]
  lhsBatch := [0, 1]
  rhsBatch := [0, 1]
  wf := dot_S4x16x1024x2048_S4x16x2048x64_S4x16x1024x64_3_2_2_3_01_01_wf

class Facts : Prop extends Facts₀ where

variable [Facts]
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.KHead.lean ====
/-
  One attention head of the kernel body, as a function of the projected query block, the key and value blocks and the mask
  row, and its value at an entry.

  Head g takes columns o … o + 63 of the query block q (512 × 1024), the g-th 2048 × 64 slab of the keys k and of the values
  v, and the mask row m (2048). With s[p, kv] = Σ_d q[p, o + d] · k[g, kv, d] + m[kv] and the shift
  μ[p] = max (max_kv s[p, kv]) c for the fixed number c, the head's output is

      head[p, d] = Σ_kv (exp (s[p, kv] − μ[p]) / Σ_kv' exp (s[p, kv'] − μ[p])) · v[g, kv, d].
-/
import proofs.«114002_j48653389529383_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws
import proofs.«114002_j48653389529383_2_alg».proof.Proof.LibPlainDot
import proofs.«114002_j48653389529383_2_alg».proof.Proof.LibTransposedDot
import proofs.«114002_j48653389529383_2_alg».proof.Proof.LibMaxSup
import proofs.«114002_j48653389529383_2_alg».proof.Proof.LibRowReduce
import proofs.«114002_j48653389529383_2_alg».proof.Proof.LibColumns
import proofs.«114002_j48653389529383_2_alg».proof.Proof.LibColumnOfVector

noncomputable section

namespace Cert.KernelIdeal.Head

open Cert.KernelIdeal Cert.KernelIdeal.Gen Idealize.ShloMosaic Idealize.ShloMosaic.ValueIdx

/-- The fixed number the row maximum is clamped by from below. -/
def clampC : EReal := Ideal.ofBits .f32 0xF149F2CA#32

/-- Columns o … o + 63 of the query block. -/
def headQ (o : Nat) (hq : S512x1024.Slices ![0, o] S512x64) (v5 : FVec Ideal S512x1024 .f32) : FVec Ideal S512x64 .bf16 :=
  truncf .bf16 (extractStridedSlice S512x64 ![0, o] v5 hq) bitsLt_bf16_f32

/-- Slab g of a key or value block. -/
def headKV (g : Nat) (hk : S16x2048x64.Slices ![g, 0, 0] S1x2048x64) (v : FVec Ideal S16x2048x64 .bf16) : FVec Ideal S2048x64 .bf16 :=
  shapeCast S2048x64 (extractStridedSlice S1x2048x64 ![g, 0, 0] v hk) shapeCasts_S1x2048x64_S2048x64

/-- The logits of one head: queries against keys, plus the mask row on every query row. -/
def scoresOf (qh : FVec Ideal S512x64 .bf16) (kh : FVec Ideal S2048x64 .bf16) (v13 : FVec Ideal S2048 .f32) : FVec Ideal S512x2048 .f32 :=
  addf (matmul dot_S512x64_S2048x64_S512x2048_1_1_0_0_n_n none qh kh (constant S512x2048 .f32 0x00000000#32))
    (broadcastTo S512x2048 (shapeCast S1x2048 v13 shapeCasts_S2048_S1x2048) broadcasts_S1x2048_S512x2048)

/-- The row maxima as a column. -/
def rowMaxOf (s : FVec Ideal S512x2048 .f32) : FVec Ideal S512x1 .f32 :=
  shapeCast S512x1 (multiReduction .maximumf [1] S512 s 0xFF800000#32 reduces_S512x2048_S512 (.inl rfl) rfl) shapeCasts_S512_S512x1

/-- The shift: the row maximum clamped from below by the fixed number. -/
def shiftOf (s : FVec Ideal S512x2048 .f32) : FVec Ideal S512x1 .f32 :=
  maximumf (rowMaxOf s) (broadcast S512x1 (Scalar.ofBits .f32 0xF149F2CA#32))

/-- The exponentials of the shifted logits. -/
def expOf (s : FVec Ideal S512x2048 .f32) (μ : FVec Ideal S512x1 .f32) : FVec Ideal S512x2048 .f32 :=
  exp (subf s (broadcastTo S512x2048 μ broadcasts_S512x1_S512x2048))

/-- The row sums as a column. -/
def rowSumOf (e : FVec Ideal S512x2048 .f32) : FVec Ideal S512x1 .f32 :=
  shapeCast S512x1 (multiReduction .add [1] S512 e 0x00000000#32 reduces_S512x2048_S512 (.inl rfl) rfl) shapeCasts_S512_S512x1

/-- The normalised weights. -/
def weightsOf (e : FVec Ideal S512x2048 .f32) (l : FVec Ideal S512x1 .f32) : FVec Ideal S512x2048 .bf16 :=
  truncf .bf16 (divf e (broadcastTo S512x2048 l broadcasts_S512x1_S512x2048)) bitsLt_bf16_f32

/-- The weights of a block of logits. -/
def softmaxOf (s : FVec Ideal S512x2048 .f32) : FVec Ideal S512x2048 .bf16 :=
  weightsOf (expOf s (shiftOf s)) (rowSumOf (expOf s (shiftOf s)))

/-- The weights applied to a value slab. -/
def avOf (w : FVec Ideal S512x2048 .bf16) (vh : FVec Ideal S2048x64 .bf16) : FVec Ideal S512x64 .f32 :=
  matmul dot_S512x2048_S2048x64_S512x64_1_0_0_1_n_n none w vh (constant S512x64 .f32 0x00000000#32)

/-- One head's output block. -/
def headOut (o : Nat) (hq : S512x1024.Slices ![0, o] S512x64) (g : Nat) (hk : S16x2048x64.Slices ![g, 0, 0] S1x2048x64)
    (v5 : FVec Ideal S512x1024 .f32) (v8 v11 : FVec Ideal S16x2048x64 .bf16) (v13 : FVec Ideal S2048 .f32) : FVec Ideal S512x64 .f32 :=
  avOf (softmaxOf (scoresOf (headQ o hq v5) (headKV g hk v8) v13)) (headKV g hk v11)

/-! ## Each piece at an entry -/

theorem headQ_apply (o : Nat) (hq : S512x1024.Slices ![0, o] S512x64) (v5 : FVec Ideal S512x1024 .f32)
    (p : Fin 512) (d : Fin 64) (k : Fin 1024) (hk : k.val = o + d.val) :
    headQ o hq v5 (ix2 p d) = v5 (ix2 p k) := by
  unfold headQ
  rw [truncf_apply]
  exact slice2_axis1_apply o v5 hq p d k hk

theorem headKV_apply (g : Nat) (hk : S16x2048x64.Slices ![g, 0, 0] S1x2048x64) (v : FVec Ideal S16x2048x64 .bf16)
    (gg : Fin 16) (hg : gg.val = g) (kv : Fin 2048) (d : Fin 64) :
    headKV g hk v (ix2 kv d) = v (ix3 gg kv d) := by
  unfold headKV
  rw [shapeCast_1ab_ab_apply]
  refine extractStridedSlice_apply _ v hk _ _ (fun ax => ?_)
  match ax with
  | ⟨0, _⟩ => show gg.val = g + 0; omega
  | ⟨1, _⟩ => exact (Nat.zero_add _).symm
  | ⟨2, _⟩ => exact (Nat.zero_add _).symm

theorem scoresOf_apply (qh : FVec Ideal S512x64 .bf16) (kh : FVec Ideal S2048x64 .bf16) (v13 : FVec Ideal S2048 .f32)
    (p : Fin 512) (kv : Fin 2048) :
    scoresOf qh kh v13 (ix2 p kv) = (∑ d : Fin 64, qh (ix2 p d) * kh (ix2 kv d)) + v13 (ix1 kv) := by
  unfold scoresOf
  rw [addf_apply, broadcastTo_1b_ab_apply, shapeCast_a_1a_apply]
  congr 1
  exact TransposedDot.matmul_zero_apply _ rfl none qh kh p kv

theorem rowMaxOf_apply (s : FVec Ideal S512x2048 .f32) (p : Fin 512) (z : Fin 1) :
    rowMaxOf s (ix2 p z) = ⨆ kv : Fin 2048, s (ix2 p kv) := by
  unfold rowMaxOf
  rw [ColumnOfVector.shapeCast_a_a1_apply]
  refine (MaxSup.multiReduction_maximumf_negInf_single s reduces_S512x2048_S512 (.inl rfl) rfl (ix1 p)).trans ?_
  exact iSup_congr fun kv => congrArg s (RowReduce.lift_row reduces_S512x2048_S512 p kv)

theorem shiftOf_apply (s : FVec Ideal S512x2048 .f32) (p : Fin 512) (z : Fin 1) :
    shiftOf s (ix2 p z) = max (⨆ kv : Fin 2048, s (ix2 p kv)) clampC := by
  unfold shiftOf
  rw [maximumf_apply, rowMaxOf_apply]
  rfl

theorem expOf_apply (s : FVec Ideal S512x2048 .f32) (μ : FVec Ideal S512x1 .f32) (p : Fin 512) (kv : Fin 2048) :
    expOf s μ (ix2 p kv) = Ideal.exp (s (ix2 p kv) - μ (ix2 p (0 : Fin 1))) := by
  unfold expOf
  show Ideal.exp (subf s _ (ix2 p kv)) = _
  rw [subf_apply, broadcastTo_a1_ab_apply]

theorem rowSumOf_apply (e : FVec Ideal S512x2048 .f32) (p : Fin 512) (z : Fin 1) :
    rowSumOf e (ix2 p z) = ∑ kv : Fin 2048, e (ix2 p kv) := by
  unfold rowSumOf
  rw [ColumnOfVector.shapeCast_a_a1_apply]
  exact RowReduce.multiReduction_add_row e _ reduces_S512x2048_S512 (.inl rfl) rfl p

theorem weightsOf_apply (e : FVec Ideal S512x2048 .f32) (l : FVec Ideal S512x1 .f32) (p : Fin 512) (kv : Fin 2048) :
    weightsOf e l (ix2 p kv) = Ideal.div (e (ix2 p kv)) (l (ix2 p (0 : Fin 1))) := by
  unfold weightsOf
  rw [truncf_apply, divf_apply, broadcastTo_a1_ab_apply]

theorem softmaxOf_apply (s : FVec Ideal S512x2048 .f32) (p : Fin 512) (kv : Fin 2048) :
    softmaxOf s (ix2 p kv)
      = Ideal.div (Ideal.exp (s (ix2 p kv) - max (⨆ k : Fin 2048, s (ix2 p k)) clampC))
          (∑ k' : Fin 2048, Ideal.exp (s (ix2 p k') - max (⨆ k : Fin 2048, s (ix2 p k)) clampC)) := by
  unfold softmaxOf
  rw [weightsOf_apply, rowSumOf_apply, expOf_apply, shiftOf_apply]
  exact congrArg (Ideal.div _) (Finset.sum_congr rfl fun k' _ => by rw [expOf_apply, shiftOf_apply])

theorem avOf_apply (w : FVec Ideal S512x2048 .bf16) (vh : FVec Ideal S2048x64 .bf16) (p : Fin 512) (d : Fin 64) :
    avOf w vh (ix2 p d) = ∑ kv : Fin 2048, w (ix2 p kv) * vh (ix2 kv d) :=
  PlainDot.matmul_zero_apply _ rfl none w vh p d

/-- One head's output at row p, lane d. -/
theorem headOut_apply (o : Nat) (hq : S512x1024.Slices ![0, o] S512x64) (g : Nat) (hk : S16x2048x64.Slices ![g, 0, 0] S1x2048x64)
    (v5 : FVec Ideal S512x1024 .f32) (v8 v11 : FVec Ideal S16x2048x64 .bf16) (v13 : FVec Ideal S2048 .f32)
    (gg : Fin 16) (hg : gg.val = g) (ho : o = gg.val * 64) (p : Fin 512) (d : Fin 64)
    (s : Fin 2048 → EReal)
    (hs : ∀ kv : Fin 2048, s kv = (∑ d' : Fin 64, v5 (ix2 p ⟨gg.val * 64 + d'.val, by omega⟩) * v8 (ix3 gg kv d')) + v13 (ix1 kv)) :
    headOut o hq g hk v5 v8 v11 v13 (ix2 p d)
      = ∑ kv : Fin 2048, Ideal.div (Ideal.exp (s kv - max (⨆ k : Fin 2048, s k) clampC))
          (∑ k' : Fin 2048, Ideal.exp (s k' - max (⨆ k : Fin 2048, s k) clampC)) * v11 (ix3 gg kv d) := by
  have hsc : ∀ kv : Fin 2048, scoresOf (headQ o hq v5) (headKV g hk v8) v13 (ix2 p kv) = s kv := fun kv => by
    rw [scoresOf_apply, hs kv]
    congr 1
    exact Finset.sum_congr rfl fun d' _ => by
      rw [headQ_apply o hq v5 p d' ⟨gg.val * 64 + d'.val, by omega⟩ (by show gg.val * 64 + d'.val = o + d'.val; omega),
        headKV_apply g hk v8 gg hg kv d']
  unfold headOut
  rw [avOf_apply]
  refine Finset.sum_congr rfl fun kv _ => ?_
  rw [softmaxOf_apply, headKV_apply g hk v11 gg hg kv d]
  simp only [hsc]

end Cert.KernelIdeal.Head

end
-- ==== Proof.KPieces.lean ====
/-
  The kernel body's sixteen head outputs are sixteen instances of one head function: head g reads columns 64 g … 64 g + 63 of
  the projected query block and slab g of the key and value blocks. The body's text cuts some heads into several named
  terms; put back together each is the same composition of operations.
-/
import proofs.«114002_j48653389529383_2_alg».proof.Proof.Gen.KernelIdeal.Skeleton
import proofs.«114002_j48653389529383_2_alg».proof.Proof.KHead

set_option maxRecDepth 65536

noncomputable section

namespace Cert.KernelIdeal.Pieces

open Cert.KernelIdeal Cert.KernelIdeal.Gen Cert.KernelIdeal.Head Idealize.ShloMosaic

variable (v5 : FVec Ideal S512x1024 .f32) (v8 v11 : FVec Ideal S16x2048x64 .bf16) (v13 : FVec Ideal S2048 .f32)

/-- Head 0, whose text reads the staged blocks directly. -/
theorem piece0 (v0 : Vec Ideal S1x512x1024 .f32) (v3 : Vec Ideal S1024x1024 .bf16) (v6 v9 : Vec Ideal S1x16x2048x64 .f32)
    (v12 : Vec Ideal S1x1x1x2048 .f32) :
    k0_pay8 (k0_pay6 v9) (k0_pay7 v0 v3 v6 v12)
      = headOut 0 slices_S512x1024_o0_0_S512x64 0 slices_S16x2048x64_o0_0_0_S1x2048x64 (k0_pay2 v0 v3) (k0_pay3 v6) (k0_pay4 v9) (k0_pay5 v12) := rfl

/-- Head 1. -/
theorem piece1 : k0_pay9 v5 v8 v11 v13
    = headOut 64 slices_S512x1024_o0_64_S512x64 1 slices_S16x2048x64_o1_0_0_S1x2048x64 v5 v8 v11 v13 := rfl

/-- Head 2. -/
theorem piece2 : k0_pay10 v5 v8 v11 v13
    = headOut 128 slices_S512x1024_o0_128_S512x64 2 slices_S16x2048x64_o2_0_0_S1x2048x64 v5 v8 v11 v13 := rfl

/-- Head 3. -/
theorem piece3 : k0_pay12 v8 v11 v13 (k0_pay11 v5)
    = headOut 192 slices_S512x1024_o0_192_S512x64 3 slices_S16x2048x64_o3_0_0_S1x2048x64 v5 v8 v11 v13 := rfl

/-- Head 4. -/
theorem piece4 : k0_pay13 v5 v8 v11 v13
    = headOut 256 slices_S512x1024_o0_256_S512x64 4 slices_S16x2048x64_o4_0_0_S1x2048x64 v5 v8 v11 v13 := rfl

/-- Head 5. -/
theorem piece5 : k0_pay17 v13 (k0_pay14 v5) (k0_pay15 v8) (k0_pay16 v11)
    = headOut 320 slices_S512x1024_o0_320_S512x64 5 slices_S16x2048x64_o5_0_0_S1x2048x64 v5 v8 v11 v13 := rfl

/-- Head 6. -/
theorem piece6 : k0_pay18 v5 v8 v11 v13
    = headOut 384 slices_S512x1024_o0_384_S512x64 6 slices_S16x2048x64_o6_0_0_S1x2048x64 v5 v8 v11 v13 := rfl

/-- Head 7. -/
theorem piece7 : k0_pay22 (k0_pay19 v11) (k0_pay20 v5 v8) (k0_pay21 v13)
    = headOut 448 slices_S512x1024_o0_448_S512x64 7 slices_S16x2048x64_o7_0_0_S1x2048x64 v5 v8 v11 v13 := rfl

/-- Head 8. -/
theorem piece8 : k0_pay23 v5 v8 v11 v13
    = headOut 512 slices_S512x1024_o0_512_S512x64 8 slices_S16x2048x64_o8_0_0_S1x2048x64 v5 v8 v11 v13 := rfl

/-- Head 9. -/
theorem piece9 : k0_pay27 (k0_pay24 v11) (k0_pay25 v5 v8 v13) (k0_pay26 v5 v8 v13)
    = headOut 576 slices_S512x1024_o0_576_S512x64 9 slices_S16x2048x64_o9_0_0_S1x2048x64 v5 v8 v11 v13 := rfl

/-- Head 10. -/
theorem piece10 : k0_pay28 v5 v8 v11 v13
    = headOut 640 slices_S512x1024_o0_640_S512x64 10 slices_S16x2048x64_o10_0_0_S1x2048x64 v5 v8 v11 v13 := rfl

/-- Head 11. -/
theorem piece11 : k0_pay32 (k0_pay29 v11) (k0_pay30 v5 v8 v13) (k0_pay31 v5 v8 v13)
    = headOut 704 slices_S512x1024_o0_704_S512x64 11 slices_S16x2048x64_o11_0_0_S1x2048x64 v5 v8 v11 v13 := rfl

/-- Head 12. -/
theorem piece12 : k0_pay33 v5 v8 v11 v13
    = headOut 768 slices_S512x1024_o0_768_S512x64 12 slices_S16x2048x64_o12_0_0_S1x2048x64 v5 v8 v11 v13 := rfl

/-- Head 13. -/
theorem piece13 : k0_pay37 (k0_pay34 v11) (k0_pay35 v5 v8 v13) (k0_pay36 v5 v8 v13)
    = headOut 832 slices_S512x1024_o0_832_S512x64 13 slices_S16x2048x64_o13_0_0_S1x2048x64 v5 v8 v11 v13 := rfl

/-- Head 14. -/
theorem piece14 : k0_pay38 v5 v8 v11 v13
    = headOut 896 slices_S512x1024_o0_896_S512x64 14 slices_S16x2048x64_o14_0_0_S1x2048x64 v5 v8 v11 v13 := rfl

/-- Head 15. -/
theorem piece15 : matmul dot_S512x2048_S2048x64_S512x64_1_0_0_1_n_n none (k0_pay40 v5 v8 v13) (k0_pay39 v11) (constant S512x64 .f32 0x00000000#32)
    = headOut 960 slices_S512x1024_o0_960_S512x64 15 slices_S16x2048x64_o15_0_0_S1x2048x64 v5 v8 v11 v13 := rfl

/-- The sixteen heads as a family. -/
def heads : Fin 16 → FVec Ideal S512x64 .f32
  | ⟨0, _⟩ => headOut 0 slices_S512x1024_o0_0_S512x64 0 slices_S16x2048x64_o0_0_0_S1x2048x64 v5 v8 v11 v13
  | ⟨1, _⟩ => headOut 64 slices_S512x1024_o0_64_S512x64 1 slices_S16x2048x64_o1_0_0_S1x2048x64 v5 v8 v11 v13
  | ⟨2, _⟩ => headOut 128 slices_S512x1024_o0_128_S512x64 2 slices_S16x2048x64_o2_0_0_S1x2048x64 v5 v8 v11 v13
  | ⟨3, _⟩ => headOut 192 slices_S512x1024_o0_192_S512x64 3 slices_S16x2048x64_o3_0_0_S1x2048x64 v5 v8 v11 v13
  | ⟨4, _⟩ => headOut 256 slices_S512x1024_o0_256_S512x64 4 slices_S16x2048x64_o4_0_0_S1x2048x64 v5 v8 v11 v13
  | ⟨5, _⟩ => headOut 320 slices_S512x1024_o0_320_S512x64 5 slices_S16x2048x64_o5_0_0_S1x2048x64 v5 v8 v11 v13
  | ⟨6, _⟩ => headOut 384 slices_S512x1024_o0_384_S512x64 6 slices_S16x2048x64_o6_0_0_S1x2048x64 v5 v8 v11 v13
  | ⟨7, _⟩ => headOut 448 slices_S512x1024_o0_448_S512x64 7 slices_S16x2048x64_o7_0_0_S1x2048x64 v5 v8 v11 v13
  | ⟨8, _⟩ => headOut 512 slices_S512x1024_o0_512_S512x64 8 slices_S16x2048x64_o8_0_0_S1x2048x64 v5 v8 v11 v13
  | ⟨9, _⟩ => headOut 576 slices_S512x1024_o0_576_S512x64 9 slices_S16x2048x64_o9_0_0_S1x2048x64 v5 v8 v11 v13
  | ⟨10, _⟩ => headOut 640 slices_S512x1024_o0_640_S512x64 10 slices_S16x2048x64_o10_0_0_S1x2048x64 v5 v8 v11 v13
  | ⟨11, _⟩ => headOut 704 slices_S512x1024_o0_704_S512x64 11 slices_S16x2048x64_o11_0_0_S1x2048x64 v5 v8 v11 v13
  | ⟨12, _⟩ => headOut 768 slices_S512x1024_o0_768_S512x64 12 slices_S16x2048x64_o12_0_0_S1x2048x64 v5 v8 v11 v13
  | ⟨13, _⟩ => headOut 832 slices_S512x1024_o0_832_S512x64 13 slices_S16x2048x64_o13_0_0_S1x2048x64 v5 v8 v11 v13
  | ⟨14, _⟩ => headOut 896 slices_S512x1024_o0_896_S512x64 14 slices_S16x2048x64_o14_0_0_S1x2048x64 v5 v8 v11 v13
  | ⟨15, _⟩ => headOut 960 slices_S512x1024_o0_960_S512x64 15 slices_S16x2048x64_o15_0_0_S1x2048x64 v5 v8 v11 v13
  | ⟨_ + 16, h⟩ => absurd h (Nat.not_lt.2 (Nat.le_add_left _ _))

end Cert.KernelIdeal.Pieces

end
-- ==== Proof.Spec.lean ====
/-
  Multi-head cross-attention without score scaling, as one function of the argument arrays.

  For a batch b, a query row r and an output column e the result is

      out[b, r, e] = Σ_j ctx[b, j / 64, r, j % 64] · Wo[j, e]                       (j < 1024: head j / 64, lane j % 64)
      ctx[b, h, r, d] = Σ_kv w[b, h, r, kv] · V[b, h, kv, d]
      w[b, h, r, kv]  = exp (s[b, h, r, kv] − μ) / Σ_kv' exp (s[b, h, r, kv'] − μ)     (softmax weights, logits shifted by μ)
      s[b, h, r, kv]  = Σ_d q[b, r, 64 h + d] · K[b, h, kv, d] + mask[b, 0, 0, kv]
      q[b, r, e]      = Σ_j X[b, r, j] · Wq[j, e].

  The shift μ = μ[b, h, r] is a parameter: one program subtracts the row maximum of the logits, the other the larger of
  the row maximum and a fixed finite number. Every operation is the extended reals' own (floats read at their ideal values).
-/
import Idealize.ShloMosaic.PureOps.Ideal
import Idealize.ShloMosaic.Lib.ValueIdx

noncomputable section

namespace Attn

open Idealize.ShloMosaic Idealize.ShloMosaic.ValueIdx

abbrev SX : Shape := ⟨3, ![4, 1024, 1024]⟩
abbrev SKV : Shape := ⟨4, ![4, 16, 2048, 64]⟩
abbrev SM : Shape := ⟨4, ![4, 1, 1, 2048]⟩
abbrev SW : Shape := ⟨2, ![1024, 1024]⟩

/-- Column 64 h + d of the projected queries: lane d of head h. -/
def col (h : Fin 16) (d : Fin 64) : Fin 1024 := ⟨h.val * 64 + d.val, by omega⟩

/-- The head j / 64 of column j < 1024. -/
def headOf (j : Fin 1024) : Fin 16 := ⟨j.val / 64, by omega⟩

/-- The lane j % 64 of column j < 1024. -/
def laneOf (j : Fin 1024) : Fin 64 := ⟨j.val % 64, by omega⟩

variable (X : SX.Idx → EReal) (K V : SKV.Idx → EReal) (M : SM.Idx → EReal) (Wq Wo : SW.Idx → EReal)

/-- The projected query q[b, r, e]. -/
def q (b : Fin 4) (r : Fin 1024) (e : Fin 1024) : EReal := ∑ j : Fin 1024, X (ix3 b r j) * Wq (ix2 j e)

/-- The logit s[b, h, r, kv]: query row against key row, plus the additive mask. -/
def score (b : Fin 4) (h : Fin 16) (r : Fin 1024) (kv : Fin 2048) : EReal :=
  (∑ d : Fin 64, q X Wq b r (col h d) * K (ix4 b h kv d)) + M (ix4 b 0 0 kv)

/-- The row maximum of the logits. -/
def rowmax (b : Fin 4) (h : Fin 16) (r : Fin 1024) : EReal := ⨆ kv : Fin 2048, score X K M Wq b h r kv

/-- The softmax weight with the logits shifted by μ. -/
def weight (μ : EReal) (b : Fin 4) (h : Fin 16) (r : Fin 1024) (kv : Fin 2048) : EReal :=
  Ideal.div (Ideal.exp (score X K M Wq b h r kv - μ)) (∑ kv' : Fin 2048, Ideal.exp (score X K M Wq b h r kv' - μ))

/-- The attended values ctx[b, h, r, d]. -/
def ctx (μ : Fin 4 → Fin 16 → Fin 1024 → EReal) (b : Fin 4) (h : Fin 16) (r : Fin 1024) (d : Fin 64) : EReal :=
  ∑ kv : Fin 2048, weight X K M Wq (μ b h r) b h r kv * V (ix4 b h kv d)

/-- The output projection out[b, r, e] of the heads laid side by side. -/
def out (μ : Fin 4 → Fin 16 → Fin 1024 → EReal) (b : Fin 4) (r : Fin 1024) (e : Fin 1024) : EReal :=
  ∑ j : Fin 1024, ctx X K V M Wq μ b (headOf j) r (laneOf j) * Wo (ix2 j e)

/-- The whole result array. -/
def outArr (μ : Fin 4 → Fin 16 → Fin 1024 → EReal) : SX.Idx → EReal := fun i => out X K V M Wq Wo μ (i 0) (i 1) (i 2)

/-- The shift of the program that clamps the row maximum from below by a fixed number c. -/
def clampShift (c : EReal) : Fin 4 → Fin 16 → Fin 1024 → EReal := fun b h r => max (rowmax X K M Wq b h r) c

end Attn

end
-- ==== Proof.KPayload.lean ====
/-
  What one grid step of the kernel writes to its output block, entry by entry, from the blocks it has staged.

  The staged blocks are x (1 × 512 × 1024, one tile of query rows of one batch), the two weight matrices wq, wo
  (1024 × 1024), the batch's keys and values k, v (1 × 16 × 2048 × 64) and its mask row (1 × 1 × 1 × 2048). With

      bq[p, e]      = Σ_j x[0, p, j] · wq[j, e]
      bs[p, n, kv]  = Σ_d bq[p, 64 n + d] · k[0, n, kv, d] + mask[0, 0, 0, kv]
      bctx[p, n, d] = Σ_kv (exp (bs[p, n, kv] − μ) / Σ_kv' exp (bs[p, n, kv'] − μ)) · v[0, n, kv, d],   μ = max (max_kv bs[p, n, kv]) c

  the block's entry (0, p, e) is Σ_j bctx[p, j / 64, j % 64] · wo[j, e].
-/
import proofs.«114002_j48653389529383_2_alg».proof.Proof.Gen.KernelIdeal.Frame
import proofs.«114002_j48653389529383_2_alg».proof.Proof.KPieces
import proofs.«114002_j48653389529383_2_alg».proof.Proof.Spec

set_option maxRecDepth 65536

noncomputable section

namespace Cert.KernelIdeal.Payload

open Cert.KernelIdeal Cert.KernelIdeal.Gen Cert.KernelIdeal.Head Cert.KernelIdeal.Pieces
open Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The layout terms at an entry -/

/-- The projected query block: x times wq. -/
theorem pay2_apply (v0 : Vec Ideal S1x512x1024 .f32) (v3 : Vec Ideal S1024x1024 .bf16) (p : Fin 512) (e : Fin 1024) :
    k0_pay2 v0 v3 (ix2 p e) = ∑ j : Fin 1024, v0 (ix3 (0 : Fin 1) p j) * v3 (ix2 j e) := by
  unfold k0_pay2
  refine (PlainDot.matmul_zero_apply _ rfl none _ _ p e).trans ?_
  refine Finset.sum_congr rfl fun j _ => ?_
  rw [truncf_apply, shapeCast_1ab_ab_apply, shapeCast_self]

/-- The key block with its unit batch axis dropped. -/
theorem pay3_apply (v6 : Vec Ideal S1x16x2048x64 .f32) (n : Fin 16) (kv : Fin 2048) (d : Fin 64) :
    k0_pay3 v6 (ix3 n kv d) = v6 (ix4 (0 : Fin 1) n kv d) := by
  unfold k0_pay3
  rw [truncf_apply, shapeCast_1abc_abc_apply]

/-- The value block with its unit batch axis dropped. -/
theorem pay4_apply (v9 : Vec Ideal S1x16x2048x64 .f32) (n : Fin 16) (kv : Fin 2048) (d : Fin 64) :
    k0_pay4 v9 (ix3 n kv d) = v9 (ix4 (0 : Fin 1) n kv d) := by
  unfold k0_pay4
  rw [truncf_apply, shapeCast_1abc_abc_apply]

/-- The mask row as a vector. -/
theorem pay5_apply (v12 : Vec Ideal S1x1x1x2048 .f32) (kv : Fin 2048) :
    k0_pay5 v12 (ix1 kv) = v12 (ix4 (0 : Fin 1) (0 : Fin 1) (0 : Fin 1) kv) := by
  unfold k0_pay5
  refine shapeCast_apply v12 _ _ _ ?_
  rw [Shape.rowMajor_val_four, Shape.rowMajor_val_one]
  show ((0 * 1 + 0) * 1 + 0) * 2048 + kv.val = kv.val
  omega

/-- The output projection of the heads laid side by side, as the stored block. -/
theorem pay1_apply (C : FVec Ideal S512x1024 .f32) (W : Vec Ideal S1024x1024 .bf16) (u : Fin 1) (p : Fin 512) (e : Fin 1024) :
    k0_pay1 C W (ix3 u p e) = ∑ j : Fin 1024, C (ix2 p j) * W (ix2 j e) := by
  unfold k0_pay1
  rw [shapeCast_ab_1ab_apply]
  refine (PlainDot.matmul_zero_apply _ rfl none _ _ p e).trans ?_
  refine Finset.sum_congr rfl fun j _ => ?_
  rw [truncf_apply, shapeCast_self]

/-- A list of sixteen entries given by a function on Fin 16, written out. -/
theorem ofFn16 {β : Type} (f : Fin 16 → β) :
    List.ofFn f = [f 0, f 1, f 2, f 3, f 4, f 5, f 6, f 7, f 8, f 9, f 10, f 11, f 12, f 13, f 14, f 15] := by
  simp only [List.ofFn_succ, List.ofFn_zero]
  rfl

/-- A concatenation depends only on the list of pieces. -/
theorem concatenate_congr {α : Type} {t : Shape} {a : Fin t.rank} {xs ys : List ((s : Shape) × (s.Idx → α))} (e : xs = ys)
    (h : Shape.Concatenates (xs.map (·.1)) t a) (h' : Shape.Concatenates (ys.map (·.1)) t a) :
    concatenate t a xs h = concatenate t a ys h' := by
  subst e
  rfl

/-! ## The heads side by side -/

section
variable (v5 : FVec Ideal S512x1024 .f32) (v8 v11 : FVec Ideal S16x2048x64 .bf16) (v13 : FVec Ideal S2048 .f32)

/-- Column j of the concatenation is lane j % 64 of head j / 64. -/
theorem concat_apply (p : Fin 512) (j : Fin 1024) :
    concatenate S512x1024 1 (List.ofFn fun n : Fin 16 => (⟨S512x64, heads v5 v8 v11 v13 n⟩ : (s : Shape) × (s.Idx → Ideal .f32)))
        concatenates_S512x64_S512x64_S512x64_S512x64_S512x64_S512x64_S512x64_S512x64_S512x64_S512x64_S512x64_S512x64_S512x64_S512x64_S512x64_S512x64_S512x1024_d1 (ix2 p j)
      = heads v5 v8 v11 v13 (Attn.headOf j) (ix2 p (Attn.laneOf j)) :=
  concatenate_ofFn_apply (t := S512x1024) (s₁ := S512x64) 1 (heads v5 v8 v11 v13) _ rfl 64 rfl (ix2 p j) (Attn.headOf j) rfl
    (ix2 p (Attn.laneOf j)) rfl (fun b hb => by
      match b with
      | ⟨0, _⟩ => rfl
      | ⟨1, _⟩ => exact absurd rfl hb)

/-- The sixteen heads written out are the family's list. -/
theorem list_eq :
    ([⟨S512x64, headOut 0 slices_S512x1024_o0_0_S512x64 0 slices_S16x2048x64_o0_0_0_S1x2048x64 v5 v8 v11 v13⟩, ⟨S512x64, headOut 64 slices_S512x1024_o0_64_S512x64 1 slices_S16x2048x64_o1_0_0_S1x2048x64 v5 v8 v11 v13⟩, ⟨S512x64, headOut 128 slices_S512x1024_o0_128_S512x64 2 slices_S16x2048x64_o2_0_0_S1x2048x64 v5 v8 v11 v13⟩, ⟨S512x64, headOut 192 slices_S512x1024_o0_192_S512x64 3 slices_S16x2048x64_o3_0_0_S1x2048x64 v5 v8 v11 v13⟩, ⟨S512x64, headOut 256 slices_S512x1024_o0_256_S512x64 4 slices_S16x2048x64_o4_0_0_S1x2048x64 v5 v8 v11 v13⟩, ⟨S512x64, headOut 320 slices_S512x1024_o0_320_S512x64 5 slices_S16x2048x64_o5_0_0_S1x2048x64 v5 v8 v11 v13⟩, ⟨S512x64, headOut 384 slices_S512x1024_o0_384_S512x64 6 slices_S16x2048x64_o6_0_0_S1x2048x64 v5 v8 v11 v13⟩, ⟨S512x64, headOut 448 slices_S512x1024_o0_448_S512x64 7 slices_S16x2048x64_o7_0_0_S1x2048x64 v5 v8 v11 v13⟩, ⟨S512x64, headOut 512 slices_S512x1024_o0_512_S512x64 8 slices_S16x2048x64_o8_0_0_S1x2048x64 v5 v8 v11 v13⟩, ⟨S512x64, headOut 576 slices_S512x1024_o0_576_S512x64 9 slices_S16x2048x64_o9_0_0_S1x2048x64 v5 v8 v11 v13⟩, ⟨S512x64, headOut 640 slices_S512x1024_o0_640_S512x64 10 slices_S16x2048x64_o10_0_0_S1x2048x64 v5 v8 v11 v13⟩, ⟨S512x64, headOut 704 slices_S512x1024_o0_704_S512x64 11 slices_S16x2048x64_o11_0_0_S1x2048x64 v5 v8 v11 v13⟩, ⟨S512x64, headOut 768 slices_S512x1024_o0_768_S512x64 12 slices_S16x2048x64_o12_0_0_S1x2048x64 v5 v8 v11 v13⟩, ⟨S512x64, headOut 832 slices_S512x1024_o0_832_S512x64 13 slices_S16x2048x64_o13_0_0_S1x2048x64 v5 v8 v11 v13⟩, ⟨S512x64, headOut 896 slices_S512x1024_o0_896_S512x64 14 slices_S16x2048x64_o14_0_0_S1x2048x64 v5 v8 v11 v13⟩, ⟨S512x64, headOut 960 slices_S512x1024_o0_960_S512x64 15 slices_S16x2048x64_o15_0_0_S1x2048x64 v5 v8 v11 v13⟩] : List ((s : Shape) × (s.Idx → Ideal .f32)))
      = List.ofFn fun n : Fin 16 => (⟨S512x64, heads v5 v8 v11 v13 n⟩ : (s : Shape) × (s.Idx → Ideal .f32)) :=
  ((ofFn16 fun n : Fin 16 => (⟨S512x64, heads v5 v8 v11 v13 n⟩ : (s : Shape) × (s.Idx → Ideal .f32))).trans rfl).symm

/-- Column j of the sixteen heads side by side is lane j % 64 of head j / 64. -/
theorem concat_lit_apply (p : Fin 512) (j : Fin 1024) :
    concatenate S512x1024 1 [⟨S512x64, headOut 0 slices_S512x1024_o0_0_S512x64 0 slices_S16x2048x64_o0_0_0_S1x2048x64 v5 v8 v11 v13⟩, ⟨S512x64, headOut 64 slices_S512x1024_o0_64_S512x64 1 slices_S16x2048x64_o1_0_0_S1x2048x64 v5 v8 v11 v13⟩, ⟨S512x64, headOut 128 slices_S512x1024_o0_128_S512x64 2 slices_S16x2048x64_o2_0_0_S1x2048x64 v5 v8 v11 v13⟩, ⟨S512x64, headOut 192 slices_S512x1024_o0_192_S512x64 3 slices_S16x2048x64_o3_0_0_S1x2048x64 v5 v8 v11 v13⟩, ⟨S512x64, headOut 256 slices_S512x1024_o0_256_S512x64 4 slices_S16x2048x64_o4_0_0_S1x2048x64 v5 v8 v11 v13⟩, ⟨S512x64, headOut 320 slices_S512x1024_o0_320_S512x64 5 slices_S16x2048x64_o5_0_0_S1x2048x64 v5 v8 v11 v13⟩, ⟨S512x64, headOut 384 slices_S512x1024_o0_384_S512x64 6 slices_S16x2048x64_o6_0_0_S1x2048x64 v5 v8 v11 v13⟩, ⟨S512x64, headOut 448 slices_S512x1024_o0_448_S512x64 7 slices_S16x2048x64_o7_0_0_S1x2048x64 v5 v8 v11 v13⟩, ⟨S512x64, headOut 512 slices_S512x1024_o0_512_S512x64 8 slices_S16x2048x64_o8_0_0_S1x2048x64 v5 v8 v11 v13⟩, ⟨S512x64, headOut 576 slices_S512x1024_o0_576_S512x64 9 slices_S16x2048x64_o9_0_0_S1x2048x64 v5 v8 v11 v13⟩, ⟨S512x64, headOut 640 slices_S512x1024_o0_640_S512x64 10 slices_S16x2048x64_o10_0_0_S1x2048x64 v5 v8 v11 v13⟩, ⟨S512x64, headOut 704 slices_S512x1024_o0_704_S512x64 11 slices_S16x2048x64_o11_0_0_S1x2048x64 v5 v8 v11 v13⟩, ⟨S512x64, headOut 768 slices_S512x1024_o0_768_S512x64 12 slices_S16x2048x64_o12_0_0_S1x2048x64 v5 v8 v11 v13⟩, ⟨S512x64, headOut 832 slices_S512x1024_o0_832_S512x64 13 slices_S16x2048x64_o13_0_0_S1x2048x64 v5 v8 v11 v13⟩, ⟨S512x64, headOut 896 slices_S512x1024_o0_896_S512x64 14 slices_S16x2048x64_o14_0_0_S1x2048x64 v5 v8 v11 v13⟩, ⟨S512x64, headOut 960 slices_S512x1024_o0_960_S512x64 15 slices_S16x2048x64_o15_0_0_S1x2048x64 v5 v8 v11 v13⟩]
        concatenates_S512x64_S512x64_S512x64_S512x64_S512x64_S512x64_S512x64_S512x64_S512x64_S512x64_S512x64_S512x64_S512x64_S512x64_S512x64_S512x64_S512x1024_d1 (ix2 p j)
      = heads v5 v8 v11 v13 (Attn.headOf j) (ix2 p (Attn.laneOf j)) :=
  (congrFun (concatenate_congr (list_eq v5 v8 v11 v13) _ _) (ix2 p j)).trans (concat_apply v5 v8 v11 v13 p j)

/-- The logit of head n at row p against key row kv. -/
def hscore (p : Fin 512) (n : Fin 16) (kv : Fin 2048) : EReal :=
  (∑ d' : Fin 64, v5 (ix2 p (Attn.col n d')) * v8 (ix3 n kv d')) + v13 (ix1 kv)

/-- Head n at row p, lane d. -/
theorem heads_apply (n : Fin 16) (p : Fin 512) (d : Fin 64) :
    heads v5 v8 v11 v13 n (ix2 p d)
      = ∑ kv : Fin 2048, Ideal.div (Ideal.exp (hscore v5 v8 v13 p n kv - max (⨆ k : Fin 2048, hscore v5 v8 v13 p n k) clampC))
          (∑ k' : Fin 2048, Ideal.exp (hscore v5 v8 v13 p n k' - max (⨆ k : Fin 2048, hscore v5 v8 v13 p n k) clampC)) * v11 (ix3 n kv d) := by
  match n with
  | ⟨0, hn⟩ => exact headOut_apply 0 slices_S512x1024_o0_0_S512x64 0 slices_S16x2048x64_o0_0_0_S1x2048x64 v5 v8 v11 v13 ⟨0, hn⟩ rfl rfl p d (hscore v5 v8 v13 p ⟨0, hn⟩) (fun _ => rfl)
  | ⟨1, hn⟩ => exact headOut_apply 64 slices_S512x1024_o0_64_S512x64 1 slices_S16x2048x64_o1_0_0_S1x2048x64 v5 v8 v11 v13 ⟨1, hn⟩ rfl rfl p d (hscore v5 v8 v13 p ⟨1, hn⟩) (fun _ => rfl)
  | ⟨2, hn⟩ => exact headOut_apply 128 slices_S512x1024_o0_128_S512x64 2 slices_S16x2048x64_o2_0_0_S1x2048x64 v5 v8 v11 v13 ⟨2, hn⟩ rfl rfl p d (hscore v5 v8 v13 p ⟨2, hn⟩) (fun _ => rfl)
  | ⟨3, hn⟩ => exact headOut_apply 192 slices_S512x1024_o0_192_S512x64 3 slices_S16x2048x64_o3_0_0_S1x2048x64 v5 v8 v11 v13 ⟨3, hn⟩ rfl rfl p d (hscore v5 v8 v13 p ⟨3, hn⟩) (fun _ => rfl)
  | ⟨4, hn⟩ => exact headOut_apply 256 slices_S512x1024_o0_256_S512x64 4 slices_S16x2048x64_o4_0_0_S1x2048x64 v5 v8 v11 v13 ⟨4, hn⟩ rfl rfl p d (hscore v5 v8 v13 p ⟨4, hn⟩) (fun _ => rfl)
  | ⟨5, hn⟩ => exact headOut_apply 320 slices_S512x1024_o0_320_S512x64 5 slices_S16x2048x64_o5_0_0_S1x2048x64 v5 v8 v11 v13 ⟨5, hn⟩ rfl rfl p d (hscore v5 v8 v13 p ⟨5, hn⟩) (fun _ => rfl)
  | ⟨6, hn⟩ => exact headOut_apply 384 slices_S512x1024_o0_384_S512x64 6 slices_S16x2048x64_o6_0_0_S1x2048x64 v5 v8 v11 v13 ⟨6, hn⟩ rfl rfl p d (hscore v5 v8 v13 p ⟨6, hn⟩) (fun _ => rfl)
  | ⟨7, hn⟩ => exact headOut_apply 448 slices_S512x1024_o0_448_S512x64 7 slices_S16x2048x64_o7_0_0_S1x2048x64 v5 v8 v11 v13 ⟨7, hn⟩ rfl rfl p d (hscore v5 v8 v13 p ⟨7, hn⟩) (fun _ => rfl)
  | ⟨8, hn⟩ => exact headOut_apply 512 slices_S512x1024_o0_512_S512x64 8 slices_S16x2048x64_o8_0_0_S1x2048x64 v5 v8 v11 v13 ⟨8, hn⟩ rfl rfl p d (hscore v5 v8 v13 p ⟨8, hn⟩) (fun _ => rfl)
  | ⟨9, hn⟩ => exact headOut_apply 576 slices_S512x1024_o0_576_S512x64 9 slices_S16x2048x64_o9_0_0_S1x2048x64 v5 v8 v11 v13 ⟨9, hn⟩ rfl rfl p d (hscore v5 v8 v13 p ⟨9, hn⟩) (fun _ => rfl)
  | ⟨10, hn⟩ => exact headOut_apply 640 slices_S512x1024_o0_640_S512x64 10 slices_S16x2048x64_o10_0_0_S1x2048x64 v5 v8 v11 v13 ⟨10, hn⟩ rfl rfl p d (hscore v5 v8 v13 p ⟨10, hn⟩) (fun _ => rfl)
  | ⟨11, hn⟩ => exact headOut_apply 704 slices_S512x1024_o0_704_S512x64 11 slices_S16x2048x64_o11_0_0_S1x2048x64 v5 v8 v11 v13 ⟨11, hn⟩ rfl rfl p d (hscore v5 v8 v13 p ⟨11, hn⟩) (fun _ => rfl)
  | ⟨12, hn⟩ => exact headOut_apply 768 slices_S512x1024_o0_768_S512x64 12 slices_S16x2048x64_o12_0_0_S1x2048x64 v5 v8 v11 v13 ⟨12, hn⟩ rfl rfl p d (hscore v5 v8 v13 p ⟨12, hn⟩) (fun _ => rfl)
  | ⟨13, hn⟩ => exact headOut_apply 832 slices_S512x1024_o0_832_S512x64 13 slices_S16x2048x64_o13_0_0_S1x2048x64 v5 v8 v11 v13 ⟨13, hn⟩ rfl rfl p d (hscore v5 v8 v13 p ⟨13, hn⟩) (fun _ => rfl)
  | ⟨14, hn⟩ => exact headOut_apply 896 slices_S512x1024_o0_896_S512x64 14 slices_S16x2048x64_o14_0_0_S1x2048x64 v5 v8 v11 v13 ⟨14, hn⟩ rfl rfl p d (hscore v5 v8 v13 p ⟨14, hn⟩) (fun _ => rfl)
  | ⟨15, hn⟩ => exact headOut_apply 960 slices_S512x1024_o0_960_S512x64 15 slices_S16x2048x64_o15_0_0_S1x2048x64 v5 v8 v11 v13 ⟨15, hn⟩ rfl rfl p d (hscore v5 v8 v13 p ⟨15, hn⟩) (fun _ => rfl)
  | ⟨_ + 16, h⟩ => exact absurd h (Nat.not_lt.2 (Nat.le_add_left _ _))

end

/-! ## The block's entries -/

section
variable (x0 : Vec Ideal S1x512x1024 .f32) (x1 : Vec Ideal S1024x1024 .bf16) (x2 x3 : Vec Ideal S1x16x2048x64 .f32)
  (x4 : Vec Ideal S1x1x1x2048 .f32) (x5 : Vec Ideal S1024x1024 .bf16)

def bq (p : Fin 512) (e : Fin 1024) : EReal := ∑ j : Fin 1024, x0 (ix3 (0 : Fin 1) p j) * x1 (ix2 j e)

def bscore (p : Fin 512) (n : Fin 16) (kv : Fin 2048) : EReal :=
  (∑ d' : Fin 64, bq x0 x1 p (Attn.col n d') * x2 (ix4 (0 : Fin 1) n kv d')) + x4 (ix4 (0 : Fin 1) (0 : Fin 1) (0 : Fin 1) kv)

def bctx (p : Fin 512) (n : Fin 16) (d : Fin 64) : EReal :=
  ∑ kv : Fin 2048, Ideal.div (Ideal.exp (bscore x0 x1 x2 x4 p n kv - max (⨆ k : Fin 2048, bscore x0 x1 x2 x4 p n k) clampC))
      (∑ k' : Fin 2048, Ideal.exp (bscore x0 x1 x2 x4 p n k' - max (⨆ k : Fin 2048, bscore x0 x1 x2 x4 p n k) clampC))
    * x3 (ix4 (0 : Fin 1) n kv d)

def blockOut (p : Fin 512) (e : Fin 1024) : EReal :=
  ∑ j : Fin 1024, bctx x0 x1 x2 x3 x4 p (Attn.headOf j) (Attn.laneOf j) * x5 (ix2 j e)

theorem hscore_blocks (p : Fin 512) (n : Fin 16) (kv : Fin 2048) :
    hscore (k0_pay2 x0 x1) (k0_pay3 x2) (k0_pay5 x4) p n kv = bscore x0 x1 x2 x4 p n kv := by
  unfold hscore bscore bq
  rw [pay5_apply]
  refine congrArg (· + _) (Finset.sum_congr rfl fun d' _ => ?_)
  rw [pay2_apply, pay3_apply]

theorem heads_blocks (p : Fin 512) (n : Fin 16) (d : Fin 64) :
    heads (k0_pay2 x0 x1) (k0_pay3 x2) (k0_pay4 x3) (k0_pay5 x4) n (ix2 p d) = bctx x0 x1 x2 x3 x4 p n d := by
  rw [heads_apply]
  unfold bctx
  simp only [hscore_blocks, pay4_apply]

/-- The stored block is the output projection of the sixteen heads side by side. -/
theorem out0_6_eq :
    out0_6 x0 x1 x2 x3 x4 x5
      = k0_pay1 (concatenate S512x1024 1 [⟨S512x64, headOut 0 slices_S512x1024_o0_0_S512x64 0 slices_S16x2048x64_o0_0_0_S1x2048x64 (k0_pay2 x0 x1) (k0_pay3 x2) (k0_pay4 x3) (k0_pay5 x4)⟩, ⟨S512x64, headOut 64 slices_S512x1024_o0_64_S512x64 1 slices_S16x2048x64_o1_0_0_S1x2048x64 (k0_pay2 x0 x1) (k0_pay3 x2) (k0_pay4 x3) (k0_pay5 x4)⟩, ⟨S512x64, headOut 128 slices_S512x1024_o0_128_S512x64 2 slices_S16x2048x64_o2_0_0_S1x2048x64 (k0_pay2 x0 x1) (k0_pay3 x2) (k0_pay4 x3) (k0_pay5 x4)⟩, ⟨S512x64, headOut 192 slices_S512x1024_o0_192_S512x64 3 slices_S16x2048x64_o3_0_0_S1x2048x64 (k0_pay2 x0 x1) (k0_pay3 x2) (k0_pay4 x3) (k0_pay5 x4)⟩, ⟨S512x64, headOut 256 slices_S512x1024_o0_256_S512x64 4 slices_S16x2048x64_o4_0_0_S1x2048x64 (k0_pay2 x0 x1) (k0_pay3 x2) (k0_pay4 x3) (k0_pay5 x4)⟩, ⟨S512x64, headOut 320 slices_S512x1024_o0_320_S512x64 5 slices_S16x2048x64_o5_0_0_S1x2048x64 (k0_pay2 x0 x1) (k0_pay3 x2) (k0_pay4 x3) (k0_pay5 x4)⟩, ⟨S512x64, headOut 384 slices_S512x1024_o0_384_S512x64 6 slices_S16x2048x64_o6_0_0_S1x2048x64 (k0_pay2 x0 x1) (k0_pay3 x2) (k0_pay4 x3) (k0_pay5 x4)⟩, ⟨S512x64, headOut 448 slices_S512x1024_o0_448_S512x64 7 slices_S16x2048x64_o7_0_0_S1x2048x64 (k0_pay2 x0 x1) (k0_pay3 x2) (k0_pay4 x3) (k0_pay5 x4)⟩, ⟨S512x64, headOut 512 slices_S512x1024_o0_512_S512x64 8 slices_S16x2048x64_o8_0_0_S1x2048x64 (k0_pay2 x0 x1) (k0_pay3 x2) (k0_pay4 x3) (k0_pay5 x4)⟩, ⟨S512x64, headOut 576 slices_S512x1024_o0_576_S512x64 9 slices_S16x2048x64_o9_0_0_S1x2048x64 (k0_pay2 x0 x1) (k0_pay3 x2) (k0_pay4 x3) (k0_pay5 x4)⟩, ⟨S512x64, headOut 640 slices_S512x1024_o0_640_S512x64 10 slices_S16x2048x64_o10_0_0_S1x2048x64 (k0_pay2 x0 x1) (k0_pay3 x2) (k0_pay4 x3) (k0_pay5 x4)⟩, ⟨S512x64, headOut 704 slices_S512x1024_o0_704_S512x64 11 slices_S16x2048x64_o11_0_0_S1x2048x64 (k0_pay2 x0 x1) (k0_pay3 x2) (k0_pay4 x3) (k0_pay5 x4)⟩, ⟨S512x64, headOut 768 slices_S512x1024_o0_768_S512x64 12 slices_S16x2048x64_o12_0_0_S1x2048x64 (k0_pay2 x0 x1) (k0_pay3 x2) (k0_pay4 x3) (k0_pay5 x4)⟩, ⟨S512x64, headOut 832 slices_S512x1024_o0_832_S512x64 13 slices_S16x2048x64_o13_0_0_S1x2048x64 (k0_pay2 x0 x1) (k0_pay3 x2) (k0_pay4 x3) (k0_pay5 x4)⟩, ⟨S512x64, headOut 896 slices_S512x1024_o0_896_S512x64 14 slices_S16x2048x64_o14_0_0_S1x2048x64 (k0_pay2 x0 x1) (k0_pay3 x2) (k0_pay4 x3) (k0_pay5 x4)⟩, ⟨S512x64, headOut 960 slices_S512x1024_o0_960_S512x64 15 slices_S16x2048x64_o15_0_0_S1x2048x64 (k0_pay2 x0 x1) (k0_pay3 x2) (k0_pay4 x3) (k0_pay5 x4)⟩]
          concatenates_S512x64_S512x64_S512x64_S512x64_S512x64_S512x64_S512x64_S512x64_S512x64_S512x64_S512x64_S512x64_S512x64_S512x64_S512x64_S512x64_S512x1024_d1) x5 := by
  unfold out0_6
  rw [View.canon_unit_zero hz3]
  rw [View.ld_unit_zero (S := S1x512x1024) hz3 _ x0, View.ld_unit_zero (S := S1024x1024) hz2 _ x1,
    View.ld_unit_zero (S := S1x16x2048x64) hz4 _ x2, View.ld_unit_zero (S := S1x16x2048x64) hz4 _ x3,
    View.ld_unit_zero (S := S1x1x1x2048) hz4 _ x4, View.ld_unit_zero (S := S1024x1024) hz2 _ x5]
  rw [piece0, piece1, piece2, piece3, piece4, piece5, piece6, piece7, piece8, piece9, piece10, piece11, piece12, piece13,
    piece14, piece15]

/-- The body's stored block at entry (u, p, e). -/
theorem out_apply (u : Fin 1) (p : Fin 512) (e : Fin 1024) :
    out0_6 x0 x1 x2 x3 x4 x5 (ix3 u p e) = blockOut x0 x1 x2 x3 x4 x5 p e := by
  rw [out0_6_eq, pay1_apply]
  unfold blockOut
  refine Finset.sum_congr rfl fun j _ => ?_
  refine congrArg (· * _) ?_
  rw [concat_lit_apply]
  exact heads_blocks x0 x1 x2 x3 x4 p (Attn.headOf j) (Attn.laneOf j)

end

end Cert.KernelIdeal.Payload

end
-- ==== Proof.KArray.lean ====
/-
  From the blocks to the whole array. Grid point t = (b, i) of the 4 × 2 grid works on batch b and query rows
  512 i … 512 i + 511: its output block is rows 512 i … of batch b of the result, its query block the same rows of the
  hidden states, its key, value and mask blocks those of batch b, and the two weight matrices are staged whole. So what
  the point writes back is its block of ONE array — the attention of the argument arrays, with the row maximum clamped from
  below — and the eight blocks tile the result.
-/
import proofs.«114002_j48653389529383_2_alg».proof.Proof.Gen.KernelIdeal.Value
import proofs.«114002_j48653389529383_2_alg».proof.Proof.KPayload
import proofs.«114002_j48653389529383_2_alg».proof.Proof.Spec
import Idealize.ShloMosaic.Lib.StableHlo.Run

set_option maxRecDepth 65536

noncomputable section

namespace Cert.KernelIdeal.Arr

open Cert.KernelIdeal Cert.KernelIdeal.Gen Cert.KernelIdeal.Head Cert.KernelIdeal.Payload
open Idealize.ShloMosaic Idealize.ShloMosaic.TcCoe Idealize.ShloMosaic.ValueIdx Idealize.SL.Sem
open Idealize.ShloMosaic.Pipeline (Dat)

/-! ## A block's entries in terms of whole arrays -/

section
variable (X : Attn.SX.Idx → EReal) (K V : Attn.SKV.Idx → EReal) (M : Attn.SM.Idx → EReal) (Wq Wo : Attn.SW.Idx → EReal)
variable (x0 : Vec Ideal S1x512x1024 .f32) (x1 : Vec Ideal S1024x1024 .bf16) (x2 x3 : Vec Ideal S1x16x2048x64 .f32)
  (x4 : Vec Ideal S1x1x1x2048 .f32) (x5 : Vec Ideal S1024x1024 .bf16)

/-- If the staged blocks are row r of batch b of the hidden states, batch b of the keys, values and mask, and the two
    weight matrices, the block's entry (p, e) is the attention's entry (b, r, e). -/
theorem blockOut_eq (b : Fin 4) (r : Fin 1024) (p : Fin 512)
    (h0 : ∀ j : Fin 1024, x0 (ix3 (0 : Fin 1) p j) = X (ix3 b r j))
    (h1 : ∀ (j e : Fin 1024), x1 (ix2 j e) = Wq (ix2 j e))
    (h2 : ∀ (n : Fin 16) (kv : Fin 2048) (d : Fin 64), x2 (ix4 (0 : Fin 1) n kv d) = K (ix4 b n kv d))
    (h3 : ∀ (n : Fin 16) (kv : Fin 2048) (d : Fin 64), x3 (ix4 (0 : Fin 1) n kv d) = V (ix4 b n kv d))
    (h4 : ∀ kv : Fin 2048, x4 (ix4 (0 : Fin 1) (0 : Fin 1) (0 : Fin 1) kv) = M (ix4 b (0 : Fin 1) (0 : Fin 1) kv))
    (h5 : ∀ (j e : Fin 1024), x5 (ix2 j e) = Wo (ix2 j e)) (e : Fin 1024) :
    blockOut x0 x1 x2 x3 x4 x5 p e = Attn.out X K V M Wq Wo (Attn.clampShift X K M Wq clampC) b r e := by
  have hq : ∀ e' : Fin 1024, bq x0 x1 p e' = Attn.q X Wq b r e' := fun e' => by
    unfold bq Attn.q; simp only [h0, h1]
  have hs : ∀ (n : Fin 16) (kv : Fin 2048), bscore x0 x1 x2 x4 p n kv = Attn.score X K M Wq b n r kv := fun n kv => by
    unfold bscore Attn.score; simp only [hq, h2, h4]
  have hc : ∀ (n : Fin 16) (d : Fin 64),
      bctx x0 x1 x2 x3 x4 p n d = Attn.ctx X K V M Wq (Attn.clampShift X K M Wq clampC) b n r d := fun n d => by
    unfold bctx Attn.ctx Attn.weight Attn.clampShift Attn.rowmax; simp only [hs, h3]
  unfold blockOut Attn.out
  simp only [hc, h5]

end

variable (m : (ℓ : Loc nD τ sig) → Buf (Elt Ideal) ℓ) (ρ : Dev nD → PrngReg)

/-! ## The array the kernel leaves -/

/-- The attention of the argument arrays with the clamped row maximum as the shift. -/
def G (c : Dev nD) : S4x1024x1024.Idx → EReal :=
  Attn.outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (Attn.clampShift (m ((c : Thread nD τ).loc main_arg0)) (m ((c : Thread nD τ).loc main_arg1)) (m ((c : Thread nD τ).loc main_arg3))
      (m ((c : Thread nD τ).loc main_arg4)) clampC)

/-- The query weights as the region finds them: the argument with its float format narrowed, the same numbers. -/
theorem V_wq (c : Dev nD) : (V m c main_v0 : S1024x1024.Idx → EReal) = m ((c : Thread nD τ).loc main_arg4) := by
  dsimp only [Gen.V, Gen.hostOps0]
  after_results
  rfl

/-- The output weights as the region finds them. -/
theorem V_wo (c : Dev nD) : (V m c main_v1 : S1024x1024.Idx → EReal) = m ((c : Thread nD τ).loc main_arg5) := by
  dsimp only [Gen.V, Gen.hostOps0]
  after_results
  rfl

/-- The index maps over the grid: the query and output blocks move with both grid coordinates, the key, value and mask
    blocks with the batch coordinate only, the weights not at all. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 2) = 0 ∧ win0_1.index t (1 : Fin 2) = 0
    ∧ win0_2.index t (0 : Fin 4) = win0_6.index t (0 : Fin 3) ∧ win0_2.index t (1 : Fin 4) = 0 ∧ win0_2.index t (2 : Fin 4) = 0
    ∧ win0_2.index t (3 : Fin 4) = 0
    ∧ win0_3.index t (0 : Fin 4) = win0_6.index t (0 : Fin 3) ∧ win0_3.index t (1 : Fin 4) = 0 ∧ win0_3.index t (2 : Fin 4) = 0
    ∧ win0_3.index t (3 : Fin 4) = 0
    ∧ win0_4.index t (0 : Fin 4) = win0_6.index t (0 : Fin 3) ∧ win0_4.index t (1 : Fin 4) = 0 ∧ win0_4.index t (2 : Fin 4) = 0
    ∧ win0_4.index t (3 : Fin 4) = 0
    ∧ win0_5.index t (0 : Fin 2) = 0 ∧ win0_5.index t (1 : Fin 2) = 0
    ∧ win0_6.index t (2 : Fin 3) = 0 ∧ win0_6.index t (0 : Fin 3) ≤ 3 ∧ win0_6.index t (1 : Fin 3) ≤ 1 :=
  (by decide +kernel : ∀ t : Fin grid0.N, _)

/-- Every (batch, row tile) pair is some grid point's output block. -/
theorem idx_onto : ∀ (q0 : Fin 4) (q1 : Fin 2), ∃ t : Fin cfg0.N, win0_6.index t = ![q0.val, q1.val, 0] :=
  (by decide +kernel : ∀ (q0 : Fin 4) (q1 : Fin 2), ∃ t : Fin grid0.N, win0_6.index t = ![q0.val, q1.val, 0])

/-- What grid point t writes back is its block of the attention array. -/
theorem flushed_eq (c : Dev nD) (t : Fin cfg0.N) :
    (dats m 0 c).flushed 6 t = ((cfg0.win 6).blk t).view.read (Elt Ideal) (G m c) := by
  rw [Value.flushed6]
  obtain ⟨f00, f01, f02, f10, f11, f20, f21, f22, f23, f30, f31, f32, f33, f40, f41, f42, f43, f50, f51, f62, f60, f61⟩ := idx_facts t
  funext y
  obtain ⟨u, p, e, rfl⟩ : ∃ (u : Fin 1) (p : Fin 512) (e : Fin 1024), y = ix3 u p e := ⟨y 0, y 1, y 2, eq_ix3 y⟩
  have hu : u.val = 0 := by omega
  show out0_6 (iblk m c 0 t) (iblk m c 1 t) (iblk m c 2 t) (iblk m c 3 t) (iblk m c 4 t) (iblk m c 5 t) (ix3 u p e)
    = G m c (((cfg0.win 6).blk t).view.emb (ix3 u p e))
  rw [out_apply]
  have hb : win0_6.index t (0 : Fin 3) < 4 := by omega
  have hr : win0_6.index t (1 : Fin 3) * 512 + p.val < 1024 := by omega
  have hemb : ((cfg0.win 6).blk t).view.emb (ix3 u p e)
      = ix3 (⟨win0_6.index t (0 : Fin 3), hb⟩ : Fin 4) (⟨win0_6.index t (1 : Fin 3) * 512 + p.val, hr⟩ : Fin 1024) e := by
    funext a; apply Fin.ext
    match a with
    | ⟨0, _⟩ => show win0_6.index t (0 : Fin 3) * 1 + 1 * u.val = win0_6.index t (0 : Fin 3); omega
    | ⟨1, _⟩ => show win0_6.index t (1 : Fin 3) * 512 + 1 * p.val = win0_6.index t (1 : Fin 3) * 512 + p.val; omega
    | ⟨2, _⟩ => show win0_6.index t (2 : Fin 3) * 1024 + 1 * e.val = e.val; omega
  rw [hemb]
  show _ = Attn.out _ _ _ _ _ _ _ (⟨win0_6.index t (0 : Fin 3), hb⟩ : Fin 4) (⟨win0_6.index t (1 : Fin 3) * 512 + p.val, hr⟩ : Fin 1024) e
  refine blockOut_eq _ _ _ _ _ _ _ _ _ _ _ _ _ _ p ?_ ?_ ?_ ?_ ?_ ?_ e
  · intro j
    show V m c main_arg0 (((cfg0.win 0).blk t).view.emb (ix3 (0 : Fin 1) p j)) = _
    rw [V_main_arg0]
    refine congrArg _ (funext fun a => Fin.ext ?_)
    match a with
    | ⟨0, _⟩ => show win0_0.index t (0 : Fin 3) * 1 + 1 * 0 = win0_6.index t (0 : Fin 3); omega
    | ⟨1, _⟩ => show win0_0.index t (1 : Fin 3) * 512 + 1 * p.val = win0_6.index t (1 : Fin 3) * 512 + p.val; omega
    | ⟨2, _⟩ => show win0_0.index t (2 : Fin 3) * 1024 + 1 * j.val = j.val; omega
  · intro j e'
    show V m c main_v0 (((cfg0.win 1).blk t).view.emb (ix2 j e')) = _
    rw [V_wq]
    refine congrArg _ (funext fun a => Fin.ext ?_)
    match a with
    | ⟨0, _⟩ => show win0_1.index t (0 : Fin 2) * 1024 + 1 * j.val = j.val; omega
    | ⟨1, _⟩ => show win0_1.index t (1 : Fin 2) * 1024 + 1 * e'.val = e'.val; omega
  · intro n kv d
    show V m c main_arg1 (((cfg0.win 2).blk t).view.emb (ix4 (0 : Fin 1) n kv d)) = _
    rw [V_main_arg1]
    refine congrArg _ (funext fun a => Fin.ext ?_)
    match a with
    | ⟨0, _⟩ => show win0_2.index t (0 : Fin 4) * 1 + 1 * 0 = win0_6.index t (0 : Fin 3); omega
    | ⟨1, _⟩ => show win0_2.index t (1 : Fin 4) * 16 + 1 * n.val = n.val; omega
    | ⟨2, _⟩ => show win0_2.index t (2 : Fin 4) * 2048 + 1 * kv.val = kv.val; omega
    | ⟨3, _⟩ => show win0_2.index t (3 : Fin 4) * 64 + 1 * d.val = d.val; omega
  · intro n kv d
    show V m c main_arg2 (((cfg0.win 3).blk t).view.emb (ix4 (0 : Fin 1) n kv d)) = _
    rw [V_main_arg2]
    refine congrArg _ (funext fun a => Fin.ext ?_)
    match a with
    | ⟨0, _⟩ => show win0_3.index t (0 : Fin 4) * 1 + 1 * 0 = win0_6.index t (0 : Fin 3); omega
    | ⟨1, _⟩ => show win0_3.index t (1 : Fin 4) * 16 + 1 * n.val = n.val; omega
    | ⟨2, _⟩ => show win0_3.index t (2 : Fin 4) * 2048 + 1 * kv.val = kv.val; omega
    | ⟨3, _⟩ => show win0_3.index t (3 : Fin 4) * 64 + 1 * d.val = d.val; omega
  · intro kv
    show V m c main_arg3 (((cfg0.win 4).blk t).view.emb (ix4 (0 : Fin 1) (0 : Fin 1) (0 : Fin 1) kv)) = _
    rw [V_main_arg3]
    refine congrArg _ (funext fun a => Fin.ext ?_)
    match a with
    | ⟨0, _⟩ => show win0_4.index t (0 : Fin 4) * 1 + 1 * 0 = win0_6.index t (0 : Fin 3); omega
    | ⟨1, _⟩ => show win0_4.index t (1 : Fin 4) * 1 + 1 * 0 = 0; omega
    | ⟨2, _⟩ => show win0_4.index t (2 : Fin 4) * 1 + 1 * 0 = 0; omega
    | ⟨3, _⟩ => show win0_4.index t (3 : Fin 4) * 2048 + 1 * kv.val = kv.val; omega
  · intro j e'
    show V m c main_v1 (((cfg0.win 5).blk t).view.emb (ix2 j e')) = _
    rw [V_wo]
    refine congrArg _ (funext fun a => Fin.ext ?_)
    match a with
    | ⟨0, _⟩ => show win0_5.index t (0 : Fin 2) * 1024 + 1 * j.val = j.val; omega
    | ⟨1, _⟩ => show win0_5.index t (1 : Fin 2) * 1024 + 1 * e'.val = e'.val; omega

/-- An index of the result is in point t's block iff each coordinate is in the block's range on its axis. -/
theorem mem_blk (t : Fin cfg0.N) (i : S4x1024x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v2).slice (win0_6.rect t)).set ↔ _
  rw [View.set_slice_whole, Rect.mem_set_unit]
  exact Iff.rfl

/-- The eight output blocks tile the result. -/
theorem cover (i : S4x1024x1024.Idx) : ∃ t : Fin cfg0.N, (cfg0.win 6).flush t = true ∧ i ∈ ((cfg0.win 6).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- The result array after the run is the attention array. -/
theorem final (c : Dev nD) : (dats m 0 c).arrAt 6 cfg0.N = G m c :=
  (dats m 0 c).arrAt_eq_of_cover 6 (G m c) (fun t _ => flushed_eq m c t) cover

/-- The kernel's run: the result ends as the attention of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Arr

end
-- ==== Proof.RefSide.lean ====
/-
  The reference program computes the attention of the specification with the row maximum of the logits as the shift.

  Stage by stage, at explicit coordinates (b batch, h head, r query row, kv key row, d lane, e and j columns):
  the first product is the projected query q; the reshape and transpose read q at column 64 h + d; the batched
  product over the lanes plus the broadcast mask is the logit s; the maximum from minus infinity over the key rows,
  maximised once more with minus infinity, is the row maximum (max ⊥ x = x); the exponentials of the shifted logits
  divided by their sum (from the zero word, which is 0) are the softmax weights; the batched product with V is ctx;
  the transpose and reshape lay the heads side by side, so column j reads head j / 64 and lane j % 64; the last
  product with Wo is the result.
-/
import proofs.«114002_j48653389529383_2_alg».proof.Proof.Gen.ReferenceIdeal.Read
import proofs.«114002_j48653389529383_2_alg».proof.Proof.Spec
import proofs.«114002_j48653389529383_2_alg».proof.Proof.LibMaxSup

noncomputable section

namespace Attn.RefSide

open Cert.ReferenceIdeal Cert.ReferenceIdeal.Read Cert.ReferenceIdeal.Gen
open Idealize.ShloMosaic Idealize.ShloMosaic.ValueIdx

/-! ## The composed index functions at explicit coordinates -/

theorem lidx0 (b : Fin 4) (r e k : Fin 1024) : lidx_main_v0 (ix3 b r e) k = ix3 b r k :=
  funext fun a => by match a with | ⟨0, _⟩ => rfl | ⟨1, _⟩ => rfl | ⟨2, _⟩ => rfl

theorem ridx0 (b : Fin 4) (r e k : Fin 1024) : ridx_main_v0 (ix3 b r e) k = ix2 k e :=
  funext fun a => by match a with | ⟨0, _⟩ => rfl | ⟨1, _⟩ => rfl

/-- Reshape then transpose: entry (b, h, r, d) is read at row-major position ((b·1024 + r)·16 + h)·64 + d of the
    [4, 1024, 1024] array, which is (b, r, 64 h + d). -/
theorem idx12 (b : Fin 4) (h : Fin 16) (r : Fin 1024) (d : Fin 64) :
    idx_main_v1 (idx_main_v2 (ix4 b h r d)) = ix3 b r (col h d) :=
  funext fun a => Fin.ext (by
    have hb := b.isLt; have hh := h.isLt; have hr := r.isLt; have hd := d.isLt
    match a with
    | ⟨0, _⟩ => show (((b.val * 1024 + r.val) * 16 + h.val) * 64 + d.val) / 1048576 = b.val; omega
    | ⟨1, _⟩ => show (((b.val * 1024 + r.val) * 16 + h.val) * 64 + d.val) / 1024 % 1024 = r.val; omega
    | ⟨2, _⟩ => show (((b.val * 1024 + r.val) * 16 + h.val) * 64 + d.val) % 1024 = h.val * 64 + d.val; omega)

theorem lidx3 (b : Fin 4) (h : Fin 16) (r : Fin 1024) (kv : Fin 2048) (k : Fin 64) :
    lidx_main_v3 (ix4 b h r kv) k = ix4 b h r k :=
  funext fun a => by match a with | ⟨0, _⟩ => rfl | ⟨1, _⟩ => rfl | ⟨2, _⟩ => rfl | ⟨3, _⟩ => rfl

theorem ridx3 (b : Fin 4) (h : Fin 16) (r : Fin 1024) (kv : Fin 2048) (k : Fin 64) :
    ridx_main_v3 (ix4 b h r kv) k = ix4 b h kv k :=
  funext fun a => by match a with | ⟨0, _⟩ => rfl | ⟨1, _⟩ => rfl | ⟨2, _⟩ => rfl | ⟨3, _⟩ => rfl

theorem idx4 (b : Fin 4) (h : Fin 16) (r : Fin 1024) (kv : Fin 2048) :
    idx_main_v4 (ix4 b h r kv) = ix4 b (0 : Fin 1) (0 : Fin 1) kv :=
  funext fun a => by match a with | ⟨0, _⟩ => rfl | ⟨1, _⟩ => rfl | ⟨2, _⟩ => rfl | ⟨3, _⟩ => rfl

theorem idx910 (b : Fin 4) (h : Fin 16) (r : Fin 1024) (kv : Fin 2048) :
    idx_main_v9 (idx_main_v10 (ix4 b h r kv)) = ix3 b h r :=
  funext fun a => by match a with | ⟨0, _⟩ => rfl | ⟨1, _⟩ => rfl | ⟨2, _⟩ => rfl

theorem idx13 (b : Fin 4) (h : Fin 16) (r : Fin 1024) (k : Fin 2048) :
    idx_main_v13 (ix3 b h r) k = ix4 b h r k :=
  funext fun a => by match a with | ⟨0, _⟩ => rfl | ⟨1, _⟩ => rfl | ⟨2, _⟩ => rfl | ⟨3, _⟩ => rfl

theorem idx1415 (b : Fin 4) (h : Fin 16) (r : Fin 1024) (kv : Fin 2048) :
    idx_main_v14 (idx_main_v15 (ix4 b h r kv)) = ix3 b h r :=
  funext fun a => by match a with | ⟨0, _⟩ => rfl | ⟨1, _⟩ => rfl | ⟨2, _⟩ => rfl

theorem lidx17 (b : Fin 4) (h : Fin 16) (r : Fin 1024) (d : Fin 64) (k : Fin 2048) :
    lidx_main_v17 (ix4 b h r d) k = ix4 b h r k :=
  funext fun a => by match a with | ⟨0, _⟩ => rfl | ⟨1, _⟩ => rfl | ⟨2, _⟩ => rfl | ⟨3, _⟩ => rfl

theorem ridx17 (b : Fin 4) (h : Fin 16) (r : Fin 1024) (d : Fin 64) (k : Fin 2048) :
    ridx_main_v17 (ix4 b h r d) k = ix4 b h k d :=
  funext fun a => by match a with | ⟨0, _⟩ => rfl | ⟨1, _⟩ => rfl | ⟨2, _⟩ => rfl | ⟨3, _⟩ => rfl

/-- Transpose then reshape: entry (b, r, j) is read at row-major position (b·1024 + r)·1024 + j of the
    [4, 1024, 16, 64] array, which is (b, r, j / 64, j % 64), the transpose of (b, j / 64, r, j % 64). -/
theorem idx1819 (b : Fin 4) (r j : Fin 1024) :
    idx_main_v18 (idx_main_v19 (ix3 b r j)) = ix4 b (headOf j) r (laneOf j) :=
  funext fun a => Fin.ext (by
    have hb := b.isLt; have hr := r.isLt; have hj := j.isLt
    match a with
    | ⟨0, _⟩ => show ((b.val * 1024 + r.val) * 1024 + j.val) / 1048576 = b.val; omega
    | ⟨1, _⟩ => show ((b.val * 1024 + r.val) * 1024 + j.val) / 64 % 16 = j.val / 64; omega
    | ⟨2, _⟩ => show ((b.val * 1024 + r.val) * 1024 + j.val) / 1024 % 1024 = r.val; omega
    | ⟨3, _⟩ => show ((b.val * 1024 + r.val) * 1024 + j.val) % 64 = j.val % 64; omega)

theorem lidx20 (b : Fin 4) (r e k : Fin 1024) : lidx_main_v20 (ix3 b r e) k = ix3 b r k :=
  funext fun a => by match a with | ⟨0, _⟩ => rfl | ⟨1, _⟩ => rfl | ⟨2, _⟩ => rfl

theorem ridx20 (b : Fin 4) (r e k : Fin 1024) : ridx_main_v20 (ix3 b r e) k = ix2 k e :=
  funext fun a => by match a with | ⟨0, _⟩ => rfl | ⟨1, _⟩ => rfl

/-! ## The stages -/

variable (x0 : (⟨S4x1024x1024, .f32⟩ : BufTy).Contents (Elt Ideal))
  (x1 x2 : (⟨S4x16x2048x64, .f32⟩ : BufTy).Contents (Elt Ideal))
  (x3 : (⟨S4x1x1x2048, .f32⟩ : BufTy).Contents (Elt Ideal))
  (x4 x5 : (⟨S1024x1024, .f32⟩ : BufTy).Contents (Elt Ideal))

/-- The first product is the projected query. -/
theorem q_eq (b : Fin 4) (r e : Fin 1024) :
    val_main_v0 (F := Ideal) x0 x4 (ix3 b r e) = Attn.q x0 x4 b r e := by
  rw [val_main_v0_apply]
  unfold Attn.q
  refine Finset.sum_congr rfl fun k _ => ?_
  rw [lidx0, ridx0]

/-- The reshaped and transposed query at (b, h, r, d) is q at column 64 h + d. -/
theorem qh_eq (b : Fin 4) (h : Fin 16) (r : Fin 1024) (d : Fin 64) :
    val_main_v2 (F := Ideal) x0 x4 (ix4 b h r d) = Attn.q x0 x4 b r (col h d) := by
  rw [val_main_v2_apply, val_main_v1_apply, idx12, q_eq]

/-- The logits. -/
theorem score_eq (b : Fin 4) (h : Fin 16) (r : Fin 1024) (kv : Fin 2048) :
    val_main_v5 (F := Ideal) x0 x1 x3 x4 (ix4 b h r kv) = Attn.score x0 x1 x3 x4 b h r kv := by
  rw [val_main_v5_apply, val_main_v3_apply, val_main_v4_apply, idx4]
  unfold Attn.score
  rw [Ideal.addf_def]
  refine congrArg (· + _) (Finset.sum_congr rfl fun k _ => ?_)
  rw [lidx3, ridx3, qh_eq]

/-- The source index over (b, h, r) with coordinate k on the reduced key axis is (b, h, r, k). -/
theorem lift6 (hR : S4x16x1024x2048.Reduces [3] S4x16x1024) (b : Fin 4) (h : Fin 16) (r : Fin 1024) (k : Fin 2048) :
    hR.lift (ix3 b h r) k = ix4 b h r k :=
  funext fun a => Fin.ext (by match a with | ⟨0, _⟩ => rfl | ⟨1, _⟩ => rfl | ⟨2, _⟩ => rfl | ⟨3, _⟩ => rfl)

/-- The maximum over the key rows, from minus infinity, is the supremum of the logits of the row. -/
theorem v6_eq (b : Fin 4) (h : Fin 16) (r : Fin 1024) :
    val_main_v6 (F := Ideal) x0 x1 x3 x4 (ix3 b h r) = Attn.rowmax x0 x1 x3 x4 b h r := by
  have hR : S4x16x1024x2048.Reduces [3] S4x16x1024 := by decide
  unfold val_main_v6
  refine (Host.reduce_eq_fold_single (FloatOps.maximumf (F := Ideal) (φ := .f32)) (val_main_v5 (F := Ideal) x0 x1 x3 x4)
    (val_main_cst (F := Ideal)) reducesTo_S4x16x1024x2048_S4x16x1024_d3 hR h_S_ (ix3 b h r)).trans ?_
  rw [val_main_cst_apply, MaxSup.neg_inf_f32']
  refine (MaxSup.fold_max_bot_univ (ι := Fin 2048)
    (fun k => val_main_v5 (F := Ideal) x0 x1 x3 x4 (hR.lift (ix3 b h r) k))).trans ?_
  unfold Attn.rowmax
  refine iSup_congr fun kv => ?_
  rw [lift6, score_eq]

/-- Maximised once more with minus infinity it is unchanged: the row maximum. -/
theorem rowmax_eq (b : Fin 4) (h : Fin 16) (r : Fin 1024) :
    val_main_v8 (F := Ideal) x0 x1 x3 x4 (ix3 b h r) = Attn.rowmax x0 x1 x3 x4 b h r := by
  rw [val_main_v8_apply, val_main_v7_apply, val_main_cst_0_apply, MaxSup.neg_inf_f32', v6_eq, Ideal.maximumf_def]
  exact max_eq_right bot_le

/-- The row maximum broadcast along the key rows. -/
theorem shift_eq (b : Fin 4) (h : Fin 16) (r : Fin 1024) (kv : Fin 2048) :
    val_main_v10 (F := Ideal) x0 x1 x3 x4 (ix4 b h r kv) = Attn.rowmax x0 x1 x3 x4 b h r := by
  rw [val_main_v10_apply, val_main_v9_apply, idx910, rowmax_eq]

/-- The exponential of the shifted logit. -/
theorem expo_eq (b : Fin 4) (h : Fin 16) (r : Fin 1024) (kv : Fin 2048) :
    val_main_v12 (F := Ideal) x0 x1 x3 x4 (ix4 b h r kv)
      = Ideal.exp (Attn.score x0 x1 x3 x4 b h r kv - Attn.rowmax x0 x1 x3 x4 b h r) := by
  rw [val_main_v12_apply, val_main_v11_apply, score_eq, shift_eq, Ideal.subf_def, Ideal.hostUnary_exp_def]

/-- The sum of the exponentials of a row, from the zero word. -/
theorem denom_eq (b : Fin 4) (h : Fin 16) (r : Fin 1024) :
    val_main_v13 (F := Ideal) x0 x1 x3 x4 (ix3 b h r)
      = ∑ kv : Fin 2048, Ideal.exp (Attn.score x0 x1 x3 x4 b h r kv - Attn.rowmax x0 x1 x3 x4 b h r) := by
  rw [val_main_v13_apply, val_main_cst_1_apply, Ideal.ofBits_def, Ideal.ofBits_zero_f32, zero_add]
  refine Finset.sum_congr rfl fun k _ => ?_
  rw [idx13, expo_eq]

/-- The softmax weight, shifted by the row maximum. -/
theorem weight_eq (b : Fin 4) (h : Fin 16) (r : Fin 1024) (kv : Fin 2048) :
    val_main_v16 (F := Ideal) x0 x1 x3 x4 (ix4 b h r kv)
      = Attn.weight x0 x1 x3 x4 (Attn.rowmax x0 x1 x3 x4 b h r) b h r kv := by
  rw [val_main_v16_apply, val_main_v15_apply, val_main_v14_apply, idx1415, denom_eq, expo_eq, Ideal.hostDivf_def]
  rfl

/-- The attended values. -/
theorem ctx_eq (b : Fin 4) (h : Fin 16) (r : Fin 1024) (d : Fin 64) :
    val_main_v17 (F := Ideal) x0 x1 x2 x3 x4 (ix4 b h r d)
      = Attn.ctx x0 x1 x2 x3 x4 (Attn.rowmax x0 x1 x3 x4) b h r d := by
  rw [val_main_v17_apply]
  unfold Attn.ctx
  refine Finset.sum_congr rfl fun k _ => ?_
  rw [lidx17, ridx17, weight_eq]

/-- The heads laid side by side: column j reads head j / 64, lane j % 64. -/
theorem heads_eq (b : Fin 4) (r j : Fin 1024) :
    val_main_v19 (F := Ideal) x0 x1 x2 x3 x4 (ix3 b r j)
      = Attn.ctx x0 x1 x2 x3 x4 (Attn.rowmax x0 x1 x3 x4) b (headOf j) r (laneOf j) := by
  rw [val_main_v19_apply, val_main_v18_apply, idx1819, ctx_eq]

/-- The output projection. -/
theorem out_eq (b : Fin 4) (r e : Fin 1024) :
    val_main_v20 (F := Ideal) x0 x1 x2 x3 x4 x5 (ix3 b r e)
      = Attn.out x0 x1 x2 x3 x4 x5 (Attn.rowmax x0 x1 x3 x4) b r e := by
  rw [val_main_v20_apply]
  unfold Attn.out
  refine Finset.sum_congr rfl fun k _ => ?_
  rw [lidx20, ridx20, heads_eq]

/-- The reference program's result is the specification with the row maximum of the logits as the shift. -/
theorem ref_eq :
    val_main_v20 (F := Ideal) x0 x1 x2 x3 x4 x5 = Attn.outArr x0 x1 x2 x3 x4 x5 (Attn.rowmax x0 x1 x3 x4) := by
  funext i
  obtain ⟨b, r, e, rfl⟩ : ∃ (b : Fin 4) (r e : Fin 1024), i = ix3 b r e := ⟨i 0, i 1, i 2, eq_ix3 i⟩
  rw [out_eq]
  rfl

end Attn.RefSide

end
-- ==== Proof.LibSoftmaxShift.lean ====
/-
  Softmax weights do not see a common shift of the logits: for finite reals, subtracting a maximum (or adding a bias)
  before exponentiating changes nothing once the weights are normalised. An attention aggregator that computes
  (Σ exp(p) · c) / (Σ exp(p)) from the logits WITHOUT their common bias and WITHOUT subtracting their maximum therefore
  agrees, over the reals, with the reference softmax(p + b) · c computed with the maximum subtracted.
  General: no program's names; Mathlib only.
-/
import Mathlib.Analysis.SpecialFunctions.Exp
import Mathlib.Algebra.BigOperators.Field

namespace Idealize.ShloMosaic.SoftmaxShift

open Finset

variable {ι : Type*} [Fintype ι] [Nonempty ι]

/-- The normalising sum of exponentials is positive. -/
theorem sum_exp_pos (x : ι → ℝ) : 0 < ∑ j, Real.exp (x j) :=
  Finset.sum_pos (fun j _ => Real.exp_pos _) Finset.univ_nonempty

/-- One weight: shifting every logit by the same amount leaves the normalised weight unchanged. -/
theorem weight_shift (x : ι → ℝ) (s : ℝ) (l : ι) :
    Real.exp (x l + s) / ∑ j, Real.exp (x j + s) = Real.exp (x l) / ∑ j, Real.exp (x j) := by
  have h : ∀ j, Real.exp (x j + s) = Real.exp (x j) * Real.exp s := fun j => Real.exp_add _ _
  simp_rw [h]
  rw [← Finset.sum_mul]
  have hE : Real.exp s ≠ 0 := (Real.exp_pos _).ne'
  have hS : (∑ j, Real.exp (x j)) ≠ 0 := (sum_exp_pos x).ne'
  field_simp

/-- The aggregate: the softmax of the logits shifted by a bias `b` and by a subtracted maximum `M`, applied to the
    values `c`, is the unshifted exponentials' weighted sum over their plain sum. -/
theorem softmax_shift (x c : ι → ℝ) (b M : ℝ) :
    ∑ l, c l * (Real.exp (x l + b - M) / ∑ j, Real.exp (x j + b - M))
      = (∑ l, Real.exp (x l) * c l) / ∑ l, Real.exp (x l) := by
  have h : ∀ l, Real.exp (x l + b - M) / ∑ j, Real.exp (x j + b - M) = Real.exp (x l) / ∑ j, Real.exp (x j) := fun l => by
    have := weight_shift x (b - M) l
    simpa [add_sub_assoc] using this
  simp_rw [h]
  rw [Finset.sum_div]
  refine Finset.sum_congr rfl fun l _ => ?_
  ring

/-! ## A group sum written as a product with a 0/1 block mask

An attention stage that normalises within groups of g consecutive rows may compute the per-group sums as ONE
matrix product with the mask m[r, j] = [⌊r / g⌋ = ⌊j / g⌋] instead of a reshape and a reduction. Row r of that
product is the sum over the g members of r's group. -/

section GroupMask

variable {n g : ℕ}

/-- Summing `u` against the indicator of group `a₀` is summing over the group's `g` members: index `j = l + g · a` of
    `Fin (n * g)` is member `l` of group `a` (`finProdFinEquiv`). -/
theorem group_sum (u : Fin (n * g) → ℝ) (a₀ : Fin n) :
    ∑ j : Fin (n * g), (if (finProdFinEquiv.symm j).1 = a₀ then (1 : ℝ) else 0) * u j
      = ∑ l : Fin g, u (finProdFinEquiv (a₀, l)) := by
  rw [← finProdFinEquiv.sum_comp]
  simp only [Equiv.symm_apply_apply]
  rw [Fintype.sum_prod_type]
  rw [Finset.sum_eq_single a₀]
  · simp
  · intro a _ ha; simp [ha]
  · intro h; exact absurd (Finset.mem_univ a₀) h

/-- The group of an index is its quotient by the group size. -/
theorem group_eq_div (j : Fin (n * g)) : ((finProdFinEquiv.symm j).1 : ℕ) = j.val / g := by
  simp [finProdFinEquiv]

end GroupMask

end Idealize.ShloMosaic.SoftmaxShift
-- ==== Proof.LibIdealSoftmax.lean ====
/-
  The softmax shift invariance at the ideal instance: floats are extended reals, `Ideal.exp` and `Ideal.div` the
  operations. For FINITE logits and values, a softmax aggregate computed with a common bias added and the maximum
  subtracted equals the unshifted exponentials' weighted sum divided by their plain sum. By reading every term at the
  reals (Proof/LibSoftmaxShift.lean) — the sum of exponentials is a positive real, so no division meets zero or an infinity.
  General: no program's names.
-/
import proofs.«114002_j48653389529383_2_alg».proof.Proof.LibSoftmaxShift
import Idealize.ShloMosaic.PureOps.Ideal

namespace Idealize.ShloMosaic.SoftmaxShift

open Finset

variable {ι : Type*} [Fintype ι] [Nonempty ι]

/-- A sum of real numbers read as extended reals is the real sum read as an extended real. -/
theorem coe_sum (f : ι → ℝ) : (∑ l, ((f l : ℝ) : EReal)) = ((∑ l, f l : ℝ) : EReal) := by
  classical
  induction (Finset.univ : Finset ι) using Finset.induction_on with
  | empty => simp
  | insert a s ha ih => rw [Finset.sum_insert ha, Finset.sum_insert ha, ih, EReal.coe_add]

/-- Dividing a real by a nonzero real, at the ideal instance, is the real quotient. -/
theorem ideal_div_coe (a : ℝ) {y : ℝ} (h : y ≠ 0) : Ideal.div (a : EReal) (y : EReal) = ((a / y : ℝ) : EReal) := by
  rw [Ideal.div_coe h, ← EReal.coe_mul]; congr 1; ring

/-- The softmax aggregate with a bias `b` added and a maximum `M` subtracted, at the ideal instance over finite logits
    `x` and values `c`, is the unshifted exponentials' weighted sum over their plain sum. -/
theorem ideal_softmax_shift (x c : ι → ℝ) (b M : ℝ) :
    (∑ l, ((c l : ℝ) : EReal) * Ideal.div (Ideal.exp ((x l + b - M : ℝ) : EReal)) (∑ j, Ideal.exp ((x j + b - M : ℝ) : EReal)))
      = Ideal.div (∑ l, Ideal.exp ((x l : ℝ) : EReal) * ((c l : ℝ) : EReal)) (∑ l, Ideal.exp ((x l : ℝ) : EReal)) := by
  simp only [Ideal.exp_coe]
  have hs1 : (∑ j, ((Real.exp (x j + b - M) : ℝ) : EReal)) = ((∑ j, Real.exp (x j + b - M) : ℝ) : EReal) := coe_sum _
  have hs2 : (∑ l, ((Real.exp (x l) : ℝ) : EReal)) = ((∑ l, Real.exp (x l) : ℝ) : EReal) := coe_sum _
  have hp1 : (0 : ℝ) < ∑ j, Real.exp (x j + b - M) := sum_exp_pos _
  have hp2 : (0 : ℝ) < ∑ l, Real.exp (x l) := sum_exp_pos _
  rw [hs1, hs2]
  simp only [ideal_div_coe _ hp1.ne', ← EReal.coe_mul]
  rw [coe_sum, coe_sum, ideal_div_coe _ hp2.ne']
  congr 1
  exact softmax_shift x c b M

end Idealize.ShloMosaic.SoftmaxShift
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.Shift.lean ====
/-
  The softmax shift of the attention: any real shift gives the same weights, so clamping the row maximum from below by
  a real number changes nothing; and every intermediate quantity of real inputs is real.
-/
import proofs.«114002_j48653389529383_2_alg».proof.Proof.Spec
import proofs.«114002_j48653389529383_2_alg».proof.Proof.LibSoftmaxShift
import proofs.«114002_j48653389529383_2_alg».proof.Proof.LibIdealSoftmax
import proofs.«114002_j48653389529383_2_alg».proof.Proof.LibFiniteAll
import proofs.«114002_j48653389529383_2_alg».proof.Pre_finite_inputs
import Mathlib.Order.ConditionallyCompleteLattice.Finset
import Mathlib.Data.EReal.Operations

noncomputable section

namespace Attn.Shift

open Idealize.ShloMosaic Idealize.ShloMosaic.ValueIdx Idealize.ShloMosaic.SoftmaxShift

/-- The product of two real numbers is a real number. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The sum of two real numbers is a real number. -/
theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- A finite sum of real numbers is a real number. -/
theorem sum_real {ι : Type*} [Fintype ι] [Nonempty ι] (f : ι → EReal) (h : ∀ i, ∃ r : ℝ, f i = r) :
    ∃ r : ℝ, ∑ i, f i = r := by
  choose g hg using h
  refine ⟨∑ i, g i, ?_⟩
  simp only [hg]
  exact coe_sum g

/-- The supremum of finitely many real numbers (at least one) is one of them, hence real. -/
theorem iSup_real {ι : Type*} [Finite ι] [Nonempty ι] (f : ι → EReal) (h : ∀ i, ∃ r : ℝ, f i = r) :
    ∃ r : ℝ, ⨆ i, f i = r := by
  obtain ⟨i, hi⟩ := exists_eq_ciSup_of_finite (f := f)
  rw [← hi]
  exact h i

/-- The larger of two real numbers is a real number. -/
theorem max_real {x y : EReal} (hx : ∃ r : ℝ, x = r) (hy : ∃ r : ℝ, y = r) : ∃ r : ℝ, max x y = r := by
  rcases max_choice x y with h | h <;> rw [h] <;> assumption

section

variable (X : Attn.SX.Idx → EReal) (K V : Attn.SKV.Idx → EReal) (M : Attn.SM.Idx → EReal) (Wq Wo : Attn.SW.Idx → EReal)

/-- Every projected query of real inputs is real. -/
theorem q_real (hX : ∀ i, ∃ r : ℝ, X i = r) (hWq : ∀ i, ∃ r : ℝ, Wq i = r) (b : Fin 4) (r : Fin 1024) (e : Fin 1024) :
    ∃ t : ℝ, Attn.q X Wq b r e = t :=
  sum_real _ fun _ => mul_real (hX _) (hWq _)

/-- Every logit of real inputs is real. -/
theorem score_real (hX : ∀ i, ∃ r : ℝ, X i = r) (hK : ∀ i, ∃ r : ℝ, K i = r) (hM : ∀ i, ∃ r : ℝ, M i = r)
    (hWq : ∀ i, ∃ r : ℝ, Wq i = r) (b : Fin 4) (h : Fin 16) (r : Fin 1024) (kv : Fin 2048) :
    ∃ t : ℝ, Attn.score X K M Wq b h r kv = t :=
  add_real (sum_real _ fun _ => mul_real (q_real X Wq hX hWq _ _ _) (hK _)) (hM _)

/-- Every row maximum of real inputs is real. -/
theorem rowmax_real (hX : ∀ i, ∃ r : ℝ, X i = r) (hK : ∀ i, ∃ r : ℝ, K i = r) (hM : ∀ i, ∃ r : ℝ, M i = r)
    (hWq : ∀ i, ∃ r : ℝ, Wq i = r) (b : Fin 4) (h : Fin 16) (r : Fin 1024) :
    ∃ t : ℝ, Attn.rowmax X K M Wq b h r = t :=
  iSup_real _ fun kv => score_real X K M Wq hX hK hM hWq b h r kv

/-- With real logits s and a real shift m, the weight is exp s / Σ exp s: it does not depend on the shift. -/
theorem weight_of_real (b : Fin 4) (h : Fin 16) (r : Fin 1024) (s : Fin 2048 → ℝ)
    (hs : ∀ kv, Attn.score X K M Wq b h r kv = s kv) (m : ℝ) (kv : Fin 2048) :
    Attn.weight X K M Wq (m : EReal) b h r kv = ((Real.exp (s kv) / ∑ j, Real.exp (s j) : ℝ) : EReal) := by
  unfold Attn.weight
  simp only [hs, ← EReal.coe_sub, Ideal.exp_coe]
  rw [coe_sum, ideal_div_coe _ (sum_exp_pos _).ne']
  congr 1
  have := weight_shift s (-m) kv
  simpa [sub_eq_add_neg] using this

/-- For real inputs, two real shifts give the same weight. -/
theorem weight_shift_indep (hX : ∀ i, ∃ r : ℝ, X i = r) (hK : ∀ i, ∃ r : ℝ, K i = r) (hM : ∀ i, ∃ r : ℝ, M i = r)
    (hWq : ∀ i, ∃ r : ℝ, Wq i = r) (b : Fin 4) (h : Fin 16) (r : Fin 1024) (kv : Fin 2048) {μ₁ μ₂ : EReal}
    (h₁ : ∃ m : ℝ, μ₁ = m) (h₂ : ∃ m : ℝ, μ₂ = m) :
    Attn.weight X K M Wq μ₁ b h r kv = Attn.weight X K M Wq μ₂ b h r kv := by
  obtain ⟨m₁, rfl⟩ := h₁
  obtain ⟨m₂, rfl⟩ := h₂
  choose s hs using fun kv => score_real X K M Wq hX hK hM hWq b h r kv
  rw [weight_of_real X K M Wq b h r s hs m₁ kv, weight_of_real X K M Wq b h r s hs m₂ kv]

/-- For arrays of real numbers, clamping the row maximum from below by a real number changes nothing. -/
theorem outArr_clamp (hX : ∀ i, ∃ r : ℝ, X i = r) (hK : ∀ i, ∃ r : ℝ, K i = r) (hM : ∀ i, ∃ r : ℝ, M i = r)
    (hWq : ∀ i, ∃ r : ℝ, Wq i = r) (c : ℝ) :
    Attn.outArr X K V M Wq Wo (Attn.clampShift X K M Wq (c : EReal)) = Attn.outArr X K V M Wq Wo (Attn.rowmax X K M Wq) := by
  funext i
  unfold Attn.outArr Attn.out Attn.ctx Attn.clampShift
  refine Finset.sum_congr rfl fun j _ => ?_
  congr 1
  refine Finset.sum_congr rfl fun kv _ => ?_
  congr 1
  exact weight_shift_indep X K M Wq hX hK hM hWq _ _ _ _
    (max_real (rowmax_real X K M Wq hX hK hM hWq _ _ _) ⟨c, rfl⟩) (rowmax_real X K M Wq hX hK hM hWq _ _ _)

end

/-- The f32 word 0xF149F2CA (−1.0000000150474662e30) denotes a real number. -/
theorem clamp_word_real : ∃ c : ℝ, Ideal.ofBits .f32 0xF149F2CA#32 = (c : EReal) := by
  -- the exponent field is 0xE2: neither all ones nor zero, so the word is a normal number
  simp only [Ideal.ofBits, Ideal.ieee]
  rw [if_neg (by decide), if_neg (by decide)]
  exact ⟨_, rfl⟩

/-- If the precondition "every float input is finite" evaluates to true at the ideal values, then every entry of the
    hidden states, the keys, the mask and the query weights is a real number: the result is the conjunction of one
    `all (|a| < +inf)` per argument array, and each conjunct excludes the two infinities entry by entry. -/
theorem reals_of_pre [Cert.Pre_finite_inputs.Facts]
    (a0 : FVec Ideal Cert.Pre_finite_inputs.S4x1024x1024 .f32)
    (a1 a2 : FVec Ideal Cert.Pre_finite_inputs.S4x16x2048x64 .f32)
    (a3 : FVec Ideal Cert.Pre_finite_inputs.S4x1x1x2048 .f32)
    (a4 a5 : FVec Ideal Cert.Pre_finite_inputs.S1024x1024 .f32)
    (h : Cert.Pre_finite_inputs.fn (F := Ideal) a0 a1 a2 a3 a4 a5 = (fun _ => 1#1)) :
    (∀ i, ∃ r : ℝ, a0 i = r) ∧ (∀ i, ∃ r : ℝ, a1 i = r) ∧ (∀ i, ∃ r : ℝ, a3 i = r) ∧ (∀ i, ∃ r : ℝ, a4 i = r) := by
  have h0 := congrFun h ValueIdx.ix0
  dsimp only [Cert.Pre_finite_inputs.fn, Cert.Pre_finite_inputs.fn_part1, andi] at h0
  obtain ⟨h0, _⟩ := IntOp.andi_eq_one.1 h0
  obtain ⟨h0, e4⟩ := IntOp.andi_eq_one.1 h0
  obtain ⟨h0, e3⟩ := IntOp.andi_eq_one.1 h0
  obtain ⟨h0, _⟩ := IntOp.andi_eq_one.1 h0
  obtain ⟨e0, e1⟩ := IntOp.andi_eq_one.1 h0
  exact ⟨FiniteAll.all_real a0 _ _ _ _ e0, FiniteAll.all_real a1 _ _ _ _ e1, FiniteAll.all_real a3 _ _ _ _ e3,
    FiniteAll.all_real a4 _ _ _ _ e4⟩

end Attn.Shift

end
-- ==== Proof.lean ====
/-
  Multi-head cross-attention (no score scaling) fused into one kernel, against its reference on the host.

  Both programs compute, for every batch b, query row r and output column e,
      out[b, r, e] = Σ_j ctx[b, j / 64, r, j % 64] · Wo[j, e],   ctx = softmax(q kᵀ + mask) v per head,   q = x Wq,
  over the extended reals. The kernel works on tiles of 512 query rows of one batch, all sixteen heads at once, and lays
  the heads side by side before the output projection; the reference works on whole arrays with the heads as an axis.
  They differ in one place: before exponentiating, the reference subtracts the row maximum of the logits, the kernel the
  larger of the row maximum and the fixed number −1.0000000150474662e30. Softmax weights do not depend on the shift as long
  as logits and shift are real numbers — exp (s − μ) / Σ exp (s' − μ) = exp s / Σ exp s' — and under the precondition every
  input entry is a real number, hence every logit, every row maximum, and both shifts. That is the one place finiteness
  is used.

  Modules: Spec (the attention as one function with the shift a parameter); KHead, KPieces, KPayload (one head of the
  kernel body at an entry; the body's sixteen heads are that head function; the stored block at an entry); KArray (the
  blocks tile the result: the kernel's result array is the attention with the clamped shift); RefSide (the reference's
  result array is the attention with the row maximum as shift); Shift (real inputs: the two shifts give one array).
-/
import proofs.«114002_j48653389529383_2_alg».proof.Defs
import proofs.«114002_j48653389529383_2_alg».proof.Proof.Gen.Kernel
import proofs.«114002_j48653389529383_2_alg».proof.Proof.Gen.Kernel.Skeleton
import proofs.«114002_j48653389529383_2_alg».proof.Proof.Gen.Kernel.Launch
import proofs.«114002_j48653389529383_2_alg».proof.Proof.Gen.Kernel.Points
import proofs.«114002_j48653389529383_2_alg».proof.Proof.Gen.Kernel.Frame
import proofs.«114002_j48653389529383_2_alg».proof.Proof.Gen.KernelIdeal
import proofs.«114002_j48653389529383_2_alg».proof.Proof.Gen.KernelIdeal.Skeleton
import proofs.«114002_j48653389529383_2_alg».proof.Proof.Gen.KernelIdeal.Launch
import proofs.«114002_j48653389529383_2_alg».proof.Proof.Gen.KernelIdeal.Points
import proofs.«114002_j48653389529383_2_alg».proof.Proof.Gen.KernelIdeal.Frame
import proofs.«114002_j48653389529383_2_alg».proof.Proof.Gen.ReferenceIdeal
import proofs.«114002_j48653389529383_2_alg».proof.Proof.Gen.Pre_finite_inputs
import proofs.«114002_j48653389529383_2_alg».proof.Proof.Gen.KernelIdeal.Value
import proofs.«114002_j48653389529383_2_alg».proof.Proof.Gen.ReferenceIdeal.Run
import proofs.«114002_j48653389529383_2_alg».proof.Proof.Gen.ReferenceIdeal.Read
import proofs.«114002_j48653389529383_2_alg».proof.Proof.KArray
import proofs.«114002_j48653389529383_2_alg».proof.Proof.RefSide
import proofs.«114002_j48653389529383_2_alg».proof.Proof.Shift
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel is read as printed: nothing was rewritten. -/
theorem preserves : Cert.preserves_Kernel_KernelIdeal := trivial

/-- The kernel ends at the attention with the clamped row maximum as shift, the reference at the attention with the row
    maximum as shift, of arguments that agree; the precondition makes every input entry real, and then the two shifts
    give the same array. -/
theorem algebraic : Cert.algebraic_KernelIdeal_ReferenceIdeal := by
  intro m ρ m' ρ' hpre hagree
  refine ⟨fun c => Cert.KernelIdeal.Arr.G m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v20_eq (F := Ideal) _ _ _ _ _ _).trans ?_
  rw [Attn.RefSide.ref_eq, a0, a1, a2, a3, a4, a5]
  obtain ⟨hX, hK, hM, hWq⟩ := Attn.Shift.reals_of_pre _ _ _ _ _ _ (hpre c)
  obtain ⟨cw, hcw⟩ := Attn.Shift.clamp_word_real
  unfold Cert.KernelIdeal.Arr.G Cert.KernelIdeal.Head.clampC
  rw [hcw]
  exact (Attn.Shift.outArr_clamp _ _ _ _ _ _ hX hK hM hWq cw).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
